-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x3x4096 : Shape := ⟨3, ![8, 3, 4096]⟩
abbrev S8x1x4096 : Shape := ⟨3, ![8, 1, 4096]⟩
abbrev S1x3x1024 : Shape := ⟨3, ![1, 3, 1024]⟩
abbrev S1x3x4096 : Shape := ⟨3, ![1, 3, 4096]⟩
abbrev S1x1x1024 : Shape := ⟨3, ![1, 1, 1024]⟩
abbrev S1x1x4096 : Shape := ⟨3, ![1, 1, 4096]⟩
abbrev S1024 : Shape := ⟨1, ![1024]⟩
abbrev S4096 : Shape := ⟨1, ![4096]⟩
abbrev S3x1024 : Shape := ⟨2, ![3, 1024]⟩
abbrev S1024x1024 : Shape := ⟨2, ![1024, 1024]⟩
abbrev S1024x1 : Shape := ⟨2, ![1024, 1]⟩
abbrev S1x1024 : Shape := ⟨2, ![1, 1024]⟩
abbrev S8x4096 : Shape := ⟨2, ![8, 4096]⟩
abbrev S_ : Shape := ⟨0, ![]⟩

abbrev nBuf : Space → Nat
  | .hbm => 21
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4096, .f32⟩
  | .hbm, ⟨3, _⟩ => ⟨S8x3x4096, .f32⟩
  | .hbm, ⟨4, _⟩ => ⟨S8x1x4096, .f32⟩
  | .hbm, ⟨5, _⟩ => ⟨S8x1x4096, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v8 : BitVec 32 := Scalar.muli arg2 c1024_i32
  v8
def k0_off1 (i : grid0.Coords) : Fin 3 → Nat :=
  let c0_6 : Index := 0#32
  let c0_7 : Index := 0#32
  let arg2 : BitVec 32 := BitVec.ofNat 32 (i 2).val
  let c1024_i32 : BitVec 32 := 1024#32
  let v8 : BitVec 32 := Scalar.muli arg2 c1024_i32
  let v9 : BitVec 32 := v8
  let v12 : Index := Scalar.indexCast v9
  ![0, 0, v12.toNat]
def k0_off2 (i : grid0.Coords) : Fin 3 → Nat :=
  let c0_20 : Index := 0#32
  let c0_21 : Index := 0#32
  let arg2 : BitVec 32 := BitVec.ofNat 32 (i 2).val
  let c1024_i32 : BitVec 32 := 1024#32
  let v8 : BitVec 32 := Scalar.muli arg2 c1024_i32
  let v9 : BitVec 32 := v8
  let v38 : Index := Scalar.indexCast v9
  ![0, 0, v38.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S8x4096x3_S8x3x4096_0_2_1 : S8x4096x3.Transposes [0, 2, 1] S8x3x4096
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1x1024 : S1024.ShapeCasts S1x1x1024
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S8x1x4096_S8x4096 : S8x1x4096.ShapeCasts S8x4096
  reducesTo_S8x4096_S_d0_1 : S8x4096.ReducesTo [0, 1] S_
  h_S_ : 0 < S_.numel
  dot_S3x1024_S3x1024_S1024x1024_0_0_1_1_n_n_wf : DotDims.WF S3x1024 S3x1024 S1024x1024 [0] [0] [1] [1] [] []
  hrank0 : 0 < grid0.rank
  k0_mult1_dvd : ∀ i : grid0.Coords, 1024 ∣ (k0_mult1 i).toNat
  k0_off1_inb : ∀ i : grid0.Coords, ∀ a, (k0_off1 i) a + S1x3x1024.size a ≤ S1x3x4096.size a
  k0_off2_inb : ∀ i : grid0.Coords, ∀ a, (k0_off2 i) a + S1x1x1024.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S8x3x4096.size a
  hwx0_0 : ∀ i : grid0.Coords, EltTy.bits .f32 = 32 ∨ (Rect.block (s := S8x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S8x3x4096.size a
  hwx0_1 : ∀ i : grid0.Coords, EltTy.bits .f32 = 32 ∨ (Rect.block (s := S8x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.BodyBitsRuns.lean ====
/-
  The kernel's frame and what its two result buffers hold, grid point by grid point.

  The grid is 8 × 4 × 4 (batch, tile of the first cloud, tile of the second), walked in row-major order, so point
  `t` has second-cloud tile `t % 4` and first-cloud tile `(t / 4) % 4`.  The body first resets the running minima:
  the row minima (result window 2, one tile of 1024) at every point with `t % 4 = 0`, the column minima (result
  window 3, the batch's whole 4096) at every point with `t % 16 = 0`.  Then it computes the 1024 × 1024 tile of
  clamped squared distances, takes the minimum of window 2 with the tile's row minima (a store of the whole block),
  and the minimum of ONE 1024-slice of window 3 with the tile's column minima (a store of that slice only).
  So there are three kinds of point: both resets (case A), the first reset only (case C), none (case B).
  Window 2 is written back after every point with `t % 4 = 3`, window 3 after every point with `t % 16 = 15`;
  between write-backs a buffer keeps what the point before left in it, which is what the body reads back.
  At a reset the body also loads the buffer before storing into it; that load's value is never used, so the
  buffer may hold anything there.

  Window 3's slice store does not cover its block: what it leaves is stated over the contents the buffer held
  before (`read_writes_unread_eq`: the result does not depend on which staging buffer it is).
-/
import proofs.«111677_j11012296147710_2_alg».proof.Proof.Gen.Kernel.Frame
import proofs.«111677_j11012296147710_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Writes over known contents do not depend on the buffer -/

/-- What a list of stores leaves in a whole buffer that held `X`, read back, is the same through any whole buffer
    of the shape: an element some store covers reads that store's payload, any other reads `X`. -/
theorem read_writes_unread_eq {sg : RefSig} {κ κ' : Kind} {sp sp' : Space} {s : Shape} {e : EltTy} {Val : EltTy → Type}
    (a : Memref sg κ sp s e) (ha : a.IsWhole) (a' : Memref sg κ' sp' s e) (ha' : a'.IsWhole) (X : s.Idx → Val e)
    (L : List (View.Piece Val s e)) :
    a.view.read Val (a.view.writes Val (ha.unread X) L) = a'.view.read Val (a'.view.writes Val (ha'.unread X) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      ha.read_unread, ha'.read_unread]

/-! ## The body's two conditions, decided over the grid -/

/-- The first reset's condition: the second-cloud tile is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The second reset's condition: both tiles are 0. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1 : ∀ t : Fin cfg0.N, cond1 (grid0.coords t) ↔ t.val % 16 = 0 :=
  (by decide +kernel : ∀ t : Fin grid0.N, cond1 (grid0.coords t) ↔ t.val % 16 = 0)

/-- Each window's current staging buffer at point `t`, and that it is a whole buffer. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- One staging buffer of each result window, through which its contents are stated. -/
abbrev MO2 : Memref sig .tc .vmem S1x1x1024 .f32 := Memref.whole cc0_stg2_0
abbrev MO3 : Memref sig .tc .vmem S1x1x4096 .f32 := Memref.whole cc0_stg3_0
theorem hMO2 : MO2.IsWhole := Memref.isWhole_whole _
theorem hMO3 : MO3.IsWhole := Memref.isWhole_whole _

/-! ## The body run, case by case -/

set_option maxHeartbeats 1000000 in
/-- Case A (both resets): the two result buffers at anything; each ends with its stores written. -/
noncomputable def runA (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : cond1 i)
    (x0 : Vec F S1x3x1024 .f32) (x1 : Vec F S1x3x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

set_option maxHeartbeats 1000000 in
/-- Case C (the first reset only): window 2's buffer at anything, window 3's at `xo3`, what the point before left. -/
noncomputable def runC (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : ¬cond1 i)
    (x0 : Vec F S1x3x1024 .f32) (x1 : Vec F S1x3x4096 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

set_option maxHeartbeats 1000000 in
/-- Case B (no reset): both result buffers at what the point before left, `xo2` and `xo3`. -/
noncomputable def runB (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : ¬cond0 i) (hc1 : ¬cond1 i)
    (x0 : Vec F S1x3x1024 .f32) (x1 : Vec F S1x3x4096 .f32) (xo2 : Vec F S1x1x1024 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Body

end
-- ==== Proof.BodyBits.lean ====
/-
  The kernel's frame, and its two result buffers point by point: the proof data of the pipeline (what each window's
  staging buffer holds after the body at each grid point), the body's obligation at every point by cases on the
  two reset conditions, the run of the whole program and the frame claim.
-/
import proofs.«111677_j11012296147710_2_alg».proof.Proof.BodyBitsRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two result buffers -/

section outs
variable (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole)
  (x0 : Vec F S1x3x1024 .f32) (x1 : Vec F S1x3x4096 .f32)

/-- Case A, window 2: the reset then the whole-block minimum. Its stores cover the block. -/
def outA2 (hc0 : cond0 i) (hc1 : cond1 i) : Vec F S1x1x1024 .f32 :=
  MO2.view.read (Elt F) (MO2.view.writes (Elt F) MO2.view.junk (runA c i arg3 harg3 arg4 harg4 arg5 harg5 arg6 harg6 hc0 hc1 x0 x1).1)
theorem coverA2 (hc0 : cond0 i) (hc1 : cond1 i) (y : S1x1x1024.Idx) :
    ∃ pc ∈ (runA c i arg3 harg3 arg4 harg4 arg5 harg5 arg6 harg6 hc0 hc1 x0 x1).1, y ∈ pc.1.set :=
  View.cover_of_tiledL (runA c i arg3 harg3 arg4 harg4 arg5 harg5 arg6 harg6 hc0 hc1 x0 x1).1 S1x1x1024.size (by sl_kernel_rfl) y
/-- Case A, window 3: the reset of the whole block then the slice's minimum. Its stores cover the block. -/
def outA3 (hc0 : cond0 i) (hc1 : cond1 i) : Vec F S1x1x4096 .f32 :=
  MO3.view.read (Elt F) (MO3.view.writes (Elt F) MO3.view.junk (runA c i arg3 harg3 arg4 harg4 arg5 harg5 arg6 harg6 hc0 hc1 x0 x1).2.1)
theorem coverA3 (hc0 : cond0 i) (hc1 : cond1 i) (y : S1x1x4096.Idx) :
    ∃ pc ∈ (runA c i arg3 harg3 arg4 harg4 arg5 harg5 arg6 harg6 hc0 hc1 x0 x1).2.1, y ∈ pc.1.set :=
  View.cover_of_tiledL (runA c i arg3 harg3 arg4 harg4 arg5 harg5 arg6 harg6 hc0 hc1 x0 x1).2.1 S1x1x4096.size (by sl_kernel_rfl) y

/-- Case C, window 2: as in case A. -/
def outC2 (hc0 : cond0 i) (hc1 : ¬cond1 i) (xo3 : Vec F S1x1x4096 .f32) : Vec F S1x1x1024 .f32 :=
  MO2.view.read (Elt F) (MO2.view.writes (Elt F) MO2.view.junk (runC c i arg3 harg3 arg4 harg4 arg5 harg5 arg6 harg6 hc0 hc1 x0 x1 xo3).1)
theorem coverC2 (hc0 : cond0 i) (hc1 : ¬cond1 i) (xo3 : Vec F S1x1x4096 .f32) (y : S1x1x1024.Idx) :
    ∃ pc ∈ (runC c i arg3 harg3 arg4 harg4 arg5 harg5 arg6 harg6 hc0 hc1 x0 x1 xo3).1, y ∈ pc.1.set :=
  View.cover_of_tiledL (runC c i arg3 harg3 arg4 harg4 arg5 harg5 arg6 harg6 hc0 hc1 x0 x1 xo3).1 S1x1x1024.size (by sl_kernel_rfl) y
/-- Case C, window 3: the slice's minimum stored over what the buffer held. -/
def outC3 (hc0 : cond0 i) (hc1 : ¬cond1 i) (xo3 : Vec F S1x1x4096 .f32) : Vec F S1x1x4096 .f32 :=
  MO3.view.read (Elt F) (MO3.view.writes (Elt F) (hMO3.unread xo3) (runC c i arg3 harg3 arg4 harg4 arg5 harg5 arg6 harg6 hc0 hc1 x0 x1 xo3).2.1)

/-- Case B, window 2: the whole-block minimum with what the buffer held. Its one store covers the block. -/
def outB2 (hc0 : ¬cond0 i) (hc1 : ¬cond1 i) (xo2 : Vec F S1x1x1024 .f32) (xo3 : Vec F S1x1x4096 .f32) : Vec F S1x1x1024 .f32 :=
  MO2.view.read (Elt F) (MO2.view.writes (Elt F) MO2.view.junk (runB c i arg3 harg3 arg4 harg4 arg5 harg5 arg6 harg6 hc0 hc1 x0 x1 xo2 xo3).1)
theorem coverB2 (hc0 : ¬cond0 i) (hc1 : ¬cond1 i) (xo2 : Vec F S1x1x1024 .f32) (xo3 : Vec F S1x1x4096 .f32) (y : S1x1x1024.Idx) :
    ∃ pc ∈ (runB c i arg3 harg3 arg4 harg4 arg5 harg5 arg6 harg6 hc0 hc1 x0 x1 xo2 xo3).1, y ∈ pc.1.set :=
  View.cover_of_tiledL (runB c i arg3 harg3 arg4 harg4 arg5 harg5 arg6 harg6 hc0 hc1 x0 x1 xo2 xo3).1 S1x1x1024.size (by sl_kernel_rfl) y
/-- Case B, window 3: the slice's minimum stored over what the buffer held. -/
def outB3 (hc0 : ¬cond0 i) (hc1 : ¬cond1 i) (xo2 : Vec F S1x1x1024 .f32) (xo3 : Vec F S1x1x4096 .f32) : Vec F S1x1x4096 .f32 :=
  MO3.view.read (Elt F) (MO3.view.writes (Elt F) (hMO3.unread xo3) (runB c i arg3 harg3 arg4 harg4 arg5 harg5 arg6 harg6 hc0 hc1 x0 x1 xo2 xo3).2.1)

end outs

/-! ## What the result buffers hold after each point -/

/-- The two running minima after the body at position `n`: the case the position is in, run at the point's staging
    buffers and input blocks, over what the position before left where the case reads it. -/
def outsAt (c : Dev nD) : (n : ℕ) → n < cfg0.N → Vec F S1x1x1024 .f32 × Vec F S1x1x4096 .f32
  | 0, hn =>
    (outA2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcond0 ⟨0, hn⟩).mpr (Nat.zero_mod _)) ((hcond1 ⟨0, hn⟩).mpr (Nat.zero_mod _)),
     outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcond0 ⟨0, hn⟩).mpr (Nat.zero_mod _)) ((hcond1 ⟨0, hn⟩).mpr (Nat.zero_mod _)))
  | n + 1, hn =>
    if h0 : (n + 1) % 4 = 0 then
      if h1 : (n + 1) % 16 = 0 then
        (outA2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) ((hcond1 ⟨n + 1, hn⟩).mpr h1),
         outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) ((hcond1 ⟨n + 1, hn⟩).mpr h1))
      else
        (outC2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) (fun h => h1 ((hcond1 ⟨n + 1, hn⟩).mp h)) (outsAt c n (Nat.lt_of_succ_lt hn)).2,
         outC3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) (fun h => h1 ((hcond1 ⟨n + 1, hn⟩).mp h)) (outsAt c n (Nat.lt_of_succ_lt hn)).2)
    else
      (outB2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (fun h => h0 ((hcond0 ⟨n + 1, hn⟩).mp h)) (fun h => h0 (by have := (hcond1 ⟨n + 1, hn⟩).mp h; dsimp only at this; omega)) (outsAt c n (Nat.lt_of_succ_lt hn)).1 (outsAt c n (Nat.lt_of_succ_lt hn)).2,
       outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (fun h => h0 ((hcond0 ⟨n + 1, hn⟩).mp h)) (fun h => h0 (by have := (hcond1 ⟨n + 1, hn⟩).mp h; dsimp only at this; omega)) (outsAt c n (Nat.lt_of_succ_lt hn)).1 (outsAt c n (Nat.lt_of_succ_lt hn)).2)

/-- The position before `t`. -/
abbrev prev (t : Fin cfg0.N) : t.val - 1 < cfg0.N := Nat.lt_of_le_of_lt (Nat.sub_le _ _) t.isLt

/-- `outsAt` at a point of case A. -/
theorem outsAt_A (c : Dev nD) (t : Fin cfg0.N) (h0 : t.val % 4 = 0) (h1 : t.val % 16 = 0) :
    outsAt m c t.val t.isLt =
      (outA2 c (grid0.coords t) (ms0 t) (hs0 t) (ms1 t) (hs1 t) (ms2 t) (hs2 t) (ms3 t) (hs3 t) (iblk m c 0 t) (iblk m c 1 t) ((hcond0 t).mpr h0) ((hcond1 t).mpr h1),
       outA3 c (grid0.coords t) (ms0 t) (hs0 t) (ms1 t) (hs1 t) (ms2 t) (hs2 t) (ms3 t) (hs3 t) (iblk m c 0 t) (iblk m c 1 t) ((hcond0 t).mpr h0) ((hcond1 t).mpr h1)) := by
  obtain ⟨n, hn⟩ := t
  cases n with
  | zero => exact rfl
  | succ n => exact (dif_pos h0).trans ((dif_pos h1).trans rfl)

/-- `outsAt` at a point of case C: over window 3 as the point before left it. -/
theorem outsAt_C (c : Dev nD) (t : Fin cfg0.N) (h0 : t.val % 4 = 0) (h1 : ¬t.val % 16 = 0) :
    outsAt m c t.val t.isLt =
      (outC2 c (grid0.coords t) (ms0 t) (hs0 t) (ms1 t) (hs1 t) (ms2 t) (hs2 t) (ms3 t) (hs3 t) (iblk m c 0 t) (iblk m c 1 t) ((hcond0 t).mpr h0) (fun h => h1 ((hcond1 t).mp h)) (outsAt m c (t.val - 1) (prev t)).2,
       outC3 c (grid0.coords t) (ms0 t) (hs0 t) (ms1 t) (hs1 t) (ms2 t) (hs2 t) (ms3 t) (hs3 t) (iblk m c 0 t) (iblk m c 1 t) ((hcond0 t).mpr h0) (fun h => h1 ((hcond1 t).mp h)) (outsAt m c (t.val - 1) (prev t)).2) := by
  obtain ⟨n, hn⟩ := t
  cases n with
  | zero => exact (by exfalso; (try dsimp only at h1); exact absurd (Nat.zero_mod _) h1)
  | succ n => exact (dif_pos h0).trans ((dif_neg h1).trans rfl)

/-- `outsAt` at a point of case B: over both windows as the point before left them. -/
theorem outsAt_B (c : Dev nD) (t : Fin cfg0.N) (h0 : ¬t.val % 4 = 0) :
    outsAt m c t.val t.isLt =
      (outB2 c (grid0.coords t) (ms0 t) (hs0 t) (ms1 t) (hs1 t) (ms2 t) (hs2 t) (ms3 t) (hs3 t) (iblk m c 0 t) (iblk m c 1 t) (fun h => h0 ((hcond0 t).mp h)) (fun h => h0 (by have := (hcond1 t).mp h; omega)) (outsAt m c (t.val - 1) (prev t)).1 (outsAt m c (t.val - 1) (prev t)).2,
       outB3 c (grid0.coords t) (ms0 t) (hs0 t) (ms1 t) (hs1 t) (ms2 t) (hs2 t) (ms3 t) (hs3 t) (iblk m c 0 t) (iblk m c 1 t) (fun h => h0 ((hcond0 t).mp h)) (fun h => h0 (by have := (hcond1 t).mp h; omega)) (outsAt m c (t.val - 1) (prev t)).1 (outsAt m c (t.val - 1) (prev t)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the two
    results' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Where the second-cloud tile is not 0, window 2's buffer holds what the point before left: the point is not the
    first, and the buffer was not written back between (that happens only after the last second-cloud tile). -/
theorem before2_kept (c : Dev nD) (t : Fin cfg0.N) (h0 : ¬t.val % 4 = 0) (d) :
    (dats m 0 c).before 2 t d = (outsAt m c (t.val - 1) (prev t)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Away from a batch's first point, window 3's buffer holds what the point before left. -/
theorem before3_kept (c : Dev nD) (t : Fin cfg0.N) (h1 : ¬t.val % 16 = 0) (d) :
    (dats m 0 c).before 3 t d = (outsAt m c (t.val - 1) (prev t)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the closed forms say which case the point is in; a
    result buffer the case reads back holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 4 = 0
  · by_cases h1 : t.val % 16 = 0
    · rw [outsAt_A m c t h0 h1]
      dsimp only
      unfold outA2 outA3
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA2 c _ _ _ _ _ _ _ _ _ _ _ _ _)
      unfold owns; iexists _; isplitr
      swap; · iexact H3
      ipureintro; exact View.read_writes_of_cover _ _ _ _ _ (coverA3 c _ _ _ _ _ _ _ _ _ _ _ _ _)
    · rw [outsAt_C m c t h0 h1]
      dsimp only
      simp only [before3_kept m c t h1]
      unfold outC2 outC3
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 c _ _ _ _ _ _ _ _ _ _ _ _ _ _)
      unfold owns; iexists _; isplitr
      swap; · iexact H3
      ipureintro; exact read_writes_unread_eq _ _ _ _ _ _
  · have h1 : ¬t.val % 16 = 0 := fun h => h0 (by omega)
    rw [outsAt_B m c t h0]
    dsimp only
    simp only [before2_kept m c t h0, before3_kept m c t h1]
    unfold outB2 outB3
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h0 (by have := (hcond1 t).mp h; omega)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 c _ _ _ _ _ _ _ _ _ _ _ _ _ _ _)
    unfold owns; iexists _; isplitr
    swap; · iexact H3
    ipureintro; exact read_writes_unread_eq _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the proof data says and every other unscoped buffer at what the host operations after the region make of
    those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.BodyIdealRuns.lean ====
/-
  The kernel's frame and what its two result buffers hold, grid point by grid point.

  The grid is 8 × 4 × 4 (batch, tile of the first cloud, tile of the second), walked in row-major order, so point
  `t` has second-cloud tile `t % 4` and first-cloud tile `(t / 4) % 4`.  The body first resets the running minima:
  the row minima (result window 2, one tile of 1024) at every point with `t % 4 = 0`, the column minima (result
  window 3, the batch's whole 4096) at every point with `t % 16 = 0`.  Then it computes the 1024 × 1024 tile of
  clamped squared distances, takes the minimum of window 2 with the tile's row minima (a store of the whole block),
  and the minimum of ONE 1024-slice of window 3 with the tile's column minima (a store of that slice only).
  So there are three kinds of point: both resets (case A), the first reset only (case C), none (case B).
  Window 2 is written back after every point with `t % 4 = 3`, window 3 after every point with `t % 16 = 15`;
  between write-backs a buffer keeps what the point before left in it, which is what the body reads back.
  At a reset the body also loads the buffer before storing into it; that load's value is never used, so the
  buffer may hold anything there.

  Window 3's slice store does not cover its block: what it leaves is stated over the contents the buffer held
  before (`read_writes_unread_eq`: the result does not depend on which staging buffer it is).
-/
import proofs.«111677_j11012296147710_2_alg».proof.Proof.Gen.KernelIdeal.Frame
import proofs.«111677_j11012296147710_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Writes over known contents do not depend on the buffer -/

/-- What a list of stores leaves in a whole buffer that held `X`, read back, is the same through any whole buffer
    of the shape: an element some store covers reads that store's payload, any other reads `X`. -/
theorem read_writes_unread_eq {sg : RefSig} {κ κ' : Kind} {sp sp' : Space} {s : Shape} {e : EltTy} {Val : EltTy → Type}
    (a : Memref sg κ sp s e) (ha : a.IsWhole) (a' : Memref sg κ' sp' s e) (ha' : a'.IsWhole) (X : s.Idx → Val e)
    (L : List (View.Piece Val s e)) :
    a.view.read Val (a.view.writes Val (ha.unread X) L) = a'.view.read Val (a'.view.writes Val (ha'.unread X) L) := by
  funext y
  by_cases h : ∃ p ∈ L, y ∈ p.1.set
  · exact View.read_writes_apply_eq _ _ _ _ y L h
  · have hn : ∀ p ∈ L, y ∉ p.1.set := fun p hp hy => h ⟨p, hp, hy⟩
    rw [View.read_writes_apply_of_forall_not_mem _ _ y L hn, View.read_writes_apply_of_forall_not_mem _ _ y L hn,
      ha.read_unread, ha'.read_unread]

/-! ## The body's two conditions, decided over the grid -/

/-- The first reset's condition: the second-cloud tile is 0. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- The second reset's condition: both tiles are 0. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcond1 : ∀ t : Fin cfg0.N, cond1 (grid0.coords t) ↔ t.val % 16 = 0 :=
  (by decide +kernel : ∀ t : Fin grid0.N, cond1 (grid0.coords t) ↔ t.val % 16 = 0)

/-- Each window's current staging buffer at point `t`, and that it is a whole buffer. -/
abbrev ms0 (t : Fin cfg0.N) : Memref sig .tc .vmem S1x3x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-- One staging buffer of each result window, through which its contents are stated. -/
abbrev MO2 : Memref sig .tc .vmem S1x1x1024 .f32 := Memref.whole cc0_stg2_0
abbrev MO3 : Memref sig .tc .vmem S1x1x4096 .f32 := Memref.whole cc0_stg3_0
theorem hMO2 : MO2.IsWhole := Memref.isWhole_whole _
theorem hMO3 : MO3.IsWhole := Memref.isWhole_whole _

/-! ## The body run, case by case -/

set_option maxHeartbeats 1000000 in
/-- Case A (both resets): the two result buffers at anything; each ends with its stores written. -/
noncomputable def runA (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : cond1 i)
    (x0 : Vec F S1x3x1024 .f32) (x1 : Vec F S1x3x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

set_option maxHeartbeats 1000000 in
/-- Case C (the first reset only): window 2's buffer at anything, window 3's at `xo3`, what the point before left. -/
noncomputable def runC (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : cond0 i) (hc1 : ¬cond1 i)
    (x0 : Vec F S1x3x1024 .f32) (x1 : Vec F S1x3x4096 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

set_option maxHeartbeats 1000000 in
/-- Case B (no reset): both result buffers at what the point before left, `xo2` and `xo3`. -/
noncomputable def runB (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole) (hc0 : ¬cond0 i) (hc1 : ¬cond1 i)
    (x0 : Vec F S1x3x1024 .f32) (x1 : Vec F S1x3x4096 .f32) (xo2 : Vec F S1x1x1024 .f32) (xo3 : Vec F S1x1x4096 .f32) :
    Σ' (L2 : List (View.Piece (Elt F) S1x1x1024 .f32)), { L3 : List (View.Piece (Elt F) S1x1x4096 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__lambda_ i arg3 harg3 arg4 harg4 arg5 harg5 arg6 harg6) K } := by
  refine ⟨?_, ?_, fun E K => ?run⟩
  case run =>
    simp only [cc0__lambda__eq_skeleton]; unfold cc0__lambda__skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Body

end
-- ==== Proof.BodyIdeal.lean ====
/-
  The kernel's frame, and its two result buffers point by point: the proof data of the pipeline (what each window's
  staging buffer holds after the body at each grid point), the body's obligation at every point by cases on the
  two reset conditions, the run of the whole program and the frame claim.
-/
import proofs.«111677_j11012296147710_2_alg».proof.Proof.BodyIdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two result buffers -/

section outs
variable (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole)
  (x0 : Vec F S1x3x1024 .f32) (x1 : Vec F S1x3x4096 .f32)

/-- Case A, window 2: the reset then the whole-block minimum. Its stores cover the block. -/
def outA2 (hc0 : cond0 i) (hc1 : cond1 i) : Vec F S1x1x1024 .f32 :=
  MO2.view.read (Elt F) (MO2.view.writes (Elt F) MO2.view.junk (runA c i arg3 harg3 arg4 harg4 arg5 harg5 arg6 harg6 hc0 hc1 x0 x1).1)
theorem coverA2 (hc0 : cond0 i) (hc1 : cond1 i) (y : S1x1x1024.Idx) :
    ∃ pc ∈ (runA c i arg3 harg3 arg4 harg4 arg5 harg5 arg6 harg6 hc0 hc1 x0 x1).1, y ∈ pc.1.set :=
  View.cover_of_tiledL (runA c i arg3 harg3 arg4 harg4 arg5 harg5 arg6 harg6 hc0 hc1 x0 x1).1 S1x1x1024.size (by sl_kernel_rfl) y
/-- Case A, window 3: the reset of the whole block then the slice's minimum. Its stores cover the block. -/
def outA3 (hc0 : cond0 i) (hc1 : cond1 i) : Vec F S1x1x4096 .f32 :=
  MO3.view.read (Elt F) (MO3.view.writes (Elt F) MO3.view.junk (runA c i arg3 harg3 arg4 harg4 arg5 harg5 arg6 harg6 hc0 hc1 x0 x1).2.1)
theorem coverA3 (hc0 : cond0 i) (hc1 : cond1 i) (y : S1x1x4096.Idx) :
    ∃ pc ∈ (runA c i arg3 harg3 arg4 harg4 arg5 harg5 arg6 harg6 hc0 hc1 x0 x1).2.1, y ∈ pc.1.set :=
  View.cover_of_tiledL (runA c i arg3 harg3 arg4 harg4 arg5 harg5 arg6 harg6 hc0 hc1 x0 x1).2.1 S1x1x4096.size (by sl_kernel_rfl) y

/-- Case C, window 2: as in case A. -/
def outC2 (hc0 : cond0 i) (hc1 : ¬cond1 i) (xo3 : Vec F S1x1x4096 .f32) : Vec F S1x1x1024 .f32 :=
  MO2.view.read (Elt F) (MO2.view.writes (Elt F) MO2.view.junk (runC c i arg3 harg3 arg4 harg4 arg5 harg5 arg6 harg6 hc0 hc1 x0 x1 xo3).1)
theorem coverC2 (hc0 : cond0 i) (hc1 : ¬cond1 i) (xo3 : Vec F S1x1x4096 .f32) (y : S1x1x1024.Idx) :
    ∃ pc ∈ (runC c i arg3 harg3 arg4 harg4 arg5 harg5 arg6 harg6 hc0 hc1 x0 x1 xo3).1, y ∈ pc.1.set :=
  View.cover_of_tiledL (runC c i arg3 harg3 arg4 harg4 arg5 harg5 arg6 harg6 hc0 hc1 x0 x1 xo3).1 S1x1x1024.size (by sl_kernel_rfl) y
/-- Case C, window 3: the slice's minimum stored over what the buffer held. -/
def outC3 (hc0 : cond0 i) (hc1 : ¬cond1 i) (xo3 : Vec F S1x1x4096 .f32) : Vec F S1x1x4096 .f32 :=
  MO3.view.read (Elt F) (MO3.view.writes (Elt F) (hMO3.unread xo3) (runC c i arg3 harg3 arg4 harg4 arg5 harg5 arg6 harg6 hc0 hc1 x0 x1 xo3).2.1)

/-- Case B, window 2: the whole-block minimum with what the buffer held. Its one store covers the block. -/
def outB2 (hc0 : ¬cond0 i) (hc1 : ¬cond1 i) (xo2 : Vec F S1x1x1024 .f32) (xo3 : Vec F S1x1x4096 .f32) : Vec F S1x1x1024 .f32 :=
  MO2.view.read (Elt F) (MO2.view.writes (Elt F) MO2.view.junk (runB c i arg3 harg3 arg4 harg4 arg5 harg5 arg6 harg6 hc0 hc1 x0 x1 xo2 xo3).1)
theorem coverB2 (hc0 : ¬cond0 i) (hc1 : ¬cond1 i) (xo2 : Vec F S1x1x1024 .f32) (xo3 : Vec F S1x1x4096 .f32) (y : S1x1x1024.Idx) :
    ∃ pc ∈ (runB c i arg3 harg3 arg4 harg4 arg5 harg5 arg6 harg6 hc0 hc1 x0 x1 xo2 xo3).1, y ∈ pc.1.set :=
  View.cover_of_tiledL (runB c i arg3 harg3 arg4 harg4 arg5 harg5 arg6 harg6 hc0 hc1 x0 x1 xo2 xo3).1 S1x1x1024.size (by sl_kernel_rfl) y
/-- Case B, window 3: the slice's minimum stored over what the buffer held. -/
def outB3 (hc0 : ¬cond0 i) (hc1 : ¬cond1 i) (xo2 : Vec F S1x1x1024 .f32) (xo3 : Vec F S1x1x4096 .f32) : Vec F S1x1x4096 .f32 :=
  MO3.view.read (Elt F) (MO3.view.writes (Elt F) (hMO3.unread xo3) (runB c i arg3 harg3 arg4 harg4 arg5 harg5 arg6 harg6 hc0 hc1 x0 x1 xo2 xo3).2.1)

end outs

/-! ## What the result buffers hold after each point -/

/-- The two running minima after the body at position `n`: the case the position is in, run at the point's staging
    buffers and input blocks, over what the position before left where the case reads it. -/
def outsAt (c : Dev nD) : (n : ℕ) → n < cfg0.N → Vec F S1x1x1024 .f32 × Vec F S1x1x4096 .f32
  | 0, hn =>
    (outA2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcond0 ⟨0, hn⟩).mpr (Nat.zero_mod _)) ((hcond1 ⟨0, hn⟩).mpr (Nat.zero_mod _)),
     outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcond0 ⟨0, hn⟩).mpr (Nat.zero_mod _)) ((hcond1 ⟨0, hn⟩).mpr (Nat.zero_mod _)))
  | n + 1, hn =>
    if h0 : (n + 1) % 4 = 0 then
      if h1 : (n + 1) % 16 = 0 then
        (outA2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) ((hcond1 ⟨n + 1, hn⟩).mpr h1),
         outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) ((hcond1 ⟨n + 1, hn⟩).mpr h1))
      else
        (outC2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) (fun h => h1 ((hcond1 ⟨n + 1, hn⟩).mp h)) (outsAt c n (Nat.lt_of_succ_lt hn)).2,
         outC3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcond0 ⟨n + 1, hn⟩).mpr h0) (fun h => h1 ((hcond1 ⟨n + 1, hn⟩).mp h)) (outsAt c n (Nat.lt_of_succ_lt hn)).2)
    else
      (outB2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (fun h => h0 ((hcond0 ⟨n + 1, hn⟩).mp h)) (fun h => h0 (by have := (hcond1 ⟨n + 1, hn⟩).mp h; dsimp only at this; omega)) (outsAt c n (Nat.lt_of_succ_lt hn)).1 (outsAt c n (Nat.lt_of_succ_lt hn)).2,
       outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (fun h => h0 ((hcond0 ⟨n + 1, hn⟩).mp h)) (fun h => h0 (by have := (hcond1 ⟨n + 1, hn⟩).mp h; dsimp only at this; omega)) (outsAt c n (Nat.lt_of_succ_lt hn)).1 (outsAt c n (Nat.lt_of_succ_lt hn)).2)

/-- The position before `t`. -/
abbrev prev (t : Fin cfg0.N) : t.val - 1 < cfg0.N := Nat.lt_of_le_of_lt (Nat.sub_le _ _) t.isLt

/-- `outsAt` at a point of case A. -/
theorem outsAt_A (c : Dev nD) (t : Fin cfg0.N) (h0 : t.val % 4 = 0) (h1 : t.val % 16 = 0) :
    outsAt m c t.val t.isLt =
      (outA2 c (grid0.coords t) (ms0 t) (hs0 t) (ms1 t) (hs1 t) (ms2 t) (hs2 t) (ms3 t) (hs3 t) (iblk m c 0 t) (iblk m c 1 t) ((hcond0 t).mpr h0) ((hcond1 t).mpr h1),
       outA3 c (grid0.coords t) (ms0 t) (hs0 t) (ms1 t) (hs1 t) (ms2 t) (hs2 t) (ms3 t) (hs3 t) (iblk m c 0 t) (iblk m c 1 t) ((hcond0 t).mpr h0) ((hcond1 t).mpr h1)) := by
  obtain ⟨n, hn⟩ := t
  cases n with
  | zero => exact rfl
  | succ n => exact (dif_pos h0).trans ((dif_pos h1).trans rfl)

/-- `outsAt` at a point of case C: over window 3 as the point before left it. -/
theorem outsAt_C (c : Dev nD) (t : Fin cfg0.N) (h0 : t.val % 4 = 0) (h1 : ¬t.val % 16 = 0) :
    outsAt m c t.val t.isLt =
      (outC2 c (grid0.coords t) (ms0 t) (hs0 t) (ms1 t) (hs1 t) (ms2 t) (hs2 t) (ms3 t) (hs3 t) (iblk m c 0 t) (iblk m c 1 t) ((hcond0 t).mpr h0) (fun h => h1 ((hcond1 t).mp h)) (outsAt m c (t.val - 1) (prev t)).2,
       outC3 c (grid0.coords t) (ms0 t) (hs0 t) (ms1 t) (hs1 t) (ms2 t) (hs2 t) (ms3 t) (hs3 t) (iblk m c 0 t) (iblk m c 1 t) ((hcond0 t).mpr h0) (fun h => h1 ((hcond1 t).mp h)) (outsAt m c (t.val - 1) (prev t)).2) := by
  obtain ⟨n, hn⟩ := t
  cases n with
  | zero => exact (by exfalso; (try dsimp only at h1); exact absurd (Nat.zero_mod _) h1)
  | succ n => exact (dif_pos h0).trans ((dif_neg h1).trans rfl)

/-- `outsAt` at a point of case B: over both windows as the point before left them. -/
theorem outsAt_B (c : Dev nD) (t : Fin cfg0.N) (h0 : ¬t.val % 4 = 0) :
    outsAt m c t.val t.isLt =
      (outB2 c (grid0.coords t) (ms0 t) (hs0 t) (ms1 t) (hs1 t) (ms2 t) (hs2 t) (ms3 t) (hs3 t) (iblk m c 0 t) (iblk m c 1 t) (fun h => h0 ((hcond0 t).mp h)) (fun h => h0 (by have := (hcond1 t).mp h; omega)) (outsAt m c (t.val - 1) (prev t)).1 (outsAt m c (t.val - 1) (prev t)).2,
       outB3 c (grid0.coords t) (ms0 t) (hs0 t) (ms1 t) (hs1 t) (ms2 t) (hs2 t) (ms3 t) (hs3 t) (iblk m c 0 t) (iblk m c 1 t) (fun h => h0 ((hcond0 t).mp h)) (fun h => h0 (by have := (hcond1 t).mp h; omega)) (outsAt m c (t.val - 1) (prev t)).1 (outsAt m c (t.val - 1) (prev t)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the two
    results' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- Where the second-cloud tile is not 0, window 2's buffer holds what the point before left: the point is not the
    first, and the buffer was not written back between (that happens only after the last second-cloud tile). -/
theorem before2_kept (c : Dev nD) (t : Fin cfg0.N) (h0 : ¬t.val % 4 = 0) (d) :
    (dats m 0 c).before 2 t d = (outsAt m c (t.val - 1) (prev t)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- Away from a batch's first point, window 3's buffer holds what the point before left. -/
theorem before3_kept (c : Dev nD) (t : Fin cfg0.N) (h1 : ¬t.val % 16 = 0) (d) :
    (dats m 0 c).before 3 t d = (outsAt m c (t.val - 1) (prev t)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; the closed forms say which case the point is in; a
    result buffer the case reads back holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 4 = 0
  · by_cases h1 : t.val % 16 = 0
    · rw [outsAt_A m c t h0 h1]
      dsimp only
      unfold outA2 outA3
      iintro ⟨HΦ, Ho, ⟨%d0, H0⟩, ⟨%d1, H1⟩, ⟨%d2, H2⟩, ⟨%d3, H3⟩⟩
      iapply ((runA c (grid0.coords t) _ _ _ _ _ _ _ _ ((hcond0 t).mpr h0) ((hcond1 t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverA2 c _ _ _ _ _ _ _ _ _ _ _ _ _)
      unfold owns; iexists _; isplitr
      swap; · iexact H3
      ipureintro; exact View.read_writes_of_cover _ _ _ _ _ (coverA3 c _ _ _ _ _ _ _ _ _ _ _ _ _)
    · rw [outsAt_C m c t h0 h1]
      dsimp only
      simp only [before3_kept m c t h1]
      unfold outC2 outC3
      iintro ⟨HΦ, Ho, ⟨%d0, H0⟩, ⟨%d1, H1⟩, ⟨%d2, H2⟩, ⟨%d3, H3⟩⟩
      iapply ((runC c (grid0.coords t) _ _ _ _ _ _ _ _ ((hcond0 t).mpr h0) (fun h => h1 ((hcond1 t).mp h)) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverC2 c _ _ _ _ _ _ _ _ _ _ _ _ _ _)
      unfold owns; iexists _; isplitr
      swap; · iexact H3
      ipureintro; exact read_writes_unread_eq _ _ _ _ _ _
  · have h1 : ¬t.val % 16 = 0 := fun h => h0 (by omega)
    rw [outsAt_B m c t h0]
    dsimp only
    simp only [before2_kept m c t h0, before3_kept m c t h1]
    unfold outB2 outB3
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (fun h => h0 (by have := (hcond1 t).mp h; omega)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverB2 c _ _ _ _ _ _ _ _ _ _ _ _ _ _ _)
    unfold owns; iexists _; isplitr
    swap; · iexact H3
    ipureintro; exact read_writes_unread_eq _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has every array of the pipeline at
    what the proof data says and every other unscoped buffer at what the host operations after the region make of
    those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  What both programs compute, as one function of the two point clouds, on the extended reals.

  A cloud holds 8 batches of 4096 points of three coordinates.  For clouds `P`, `Q`, a batch `b`, a point
  `n` of `P` and a point `m` of `Q`:
    `sq P b n`        the sum of the squares of the three coordinates of point `n`;
    `inner P Q b n m` the inner product of the two points;
    `dd P Q b n m`    the clamped squared distance  max (‖p‖² + ‖q‖² − 2·⟨p, q⟩, 0);
    `near1 P Q b n`   the least `dd` over all points `m` of `Q`, folded from +∞;
    `near2 P Q b m`   the least `dd` over all points `n` of `P`, folded from +∞.
  The loss is half the sum of the two means of the square roots of these nearest distances (the mean is the
  sum from zero divided by 32768 = 8 · 4096).

  The three float words that occur (2, 0, +∞) are kept as the words themselves: both programs carry the same
  word, so none is ever evaluated — a minimum folded from a word `c` over a union of index sets is the
  minimum of the folds over the parts whatever `c` is, because `min` is idempotent.
-/
import Idealize.ShloMosaic.PureOps
import Idealize.ShloMosaic.PureOps.Ideal
import Idealize.ShloMosaic.Lib.ValueIdx

noncomputable section

namespace Cert.Chamfer

open Idealize.ShloMosaic Idealize.ShloMosaic.ValueIdx

/-- A cloud: 8 batches of 4096 points of three coordinates. -/
abbrev SCloud : Shape := ⟨3, ![8, 4096, 3]⟩
/-- One number per batch and point. -/
abbrev SPts : Shape := ⟨2, ![8, 4096]⟩
/-- A scalar. -/
abbrev SOne : Shape := ⟨0, ![]⟩

abbrev Cloud : Type := SCloud.Idx → EReal

/-- The words of 2, 0 and +∞, never evaluated. -/
abbrev two : EReal := Ideal.ofBits .f32 0x40000000#32
abbrev zero : EReal := Ideal.ofBits .f32 0x00000000#32
abbrev top : EReal := Ideal.ofBits .f32 0x7F800000#32

/-- The squared norm of point `n` of batch `b`. -/
def sq (P : Cloud) (b : Fin 8) (n : Fin 4096) : EReal := ∑ d : Fin 3, P (ix3 b n d) * P (ix3 b n d)

/-- The inner product of point `n` of `P` and point `m` of `Q`, in batch `b`. -/
def inner (P Q : Cloud) (b : Fin 8) (n m : Fin 4096) : EReal := ∑ d : Fin 3, P (ix3 b n d) * Q (ix3 b m d)

/-- The clamped squared distance between the two points. -/
def dd (P Q : Cloud) (b : Fin 8) (n m : Fin 4096) : EReal :=
  max ((sq P b n + sq Q b m) - two * inner P Q b n m) zero

/-- The squared distance from point `n` of `P` to the nearest point of `Q`. -/
def near1 (P Q : Cloud) (b : Fin 8) (n : Fin 4096) : EReal :=
  (Finset.univ : Finset (Fin 4096)).fold min top (fun m => dd P Q b n m)

/-- The squared distance from point `m` of `Q` to the nearest point of `P`. -/
def near2 (P Q : Cloud) (b : Fin 8) (m : Fin 4096) : EReal :=
  (Finset.univ : Finset (Fin 4096)).fold min top (fun n => dd P Q b n m)

/-- The nearest distances as arrays. -/
def near1A (P Q : Cloud) : FVec Ideal SPts .f32 := fun i => near1 P Q (i 0) (i 1)
def near2A (P Q : Cloud) : FVec Ideal SPts .f32 := fun i => near2 P Q (i 0) (i 1)

theorem hred : SPts.ReducesTo [0, 1] SOne := by decide
theorem hone : 0 < SOne.numel := by decide

/-- The mean of the square roots: the sum from the zero word, divided by the word of 32768. -/
def meanSqrt (A : FVec Ideal SPts .f32) : FVec Ideal SOne .f32 :=
  Host.divf (F := Ideal) (Host.reduceAdd (F := Ideal) (Host.sqrt (F := Ideal) A) (constant (F := Ideal) SOne .f32 0x00000000#32) hred hone)
    (constant (F := Ideal) SOne .f32 0x47000000#32)

/-- The loss: half the sum of the two means. -/
def loss (P Q : Cloud) : FVec Ideal SOne .f32 :=
  mulf (F := Ideal) (addf (F := Ideal) (meanSqrt (near1A P Q)) (meanSqrt (near2A P Q))) (constant (F := Ideal) SOne .f32 0x3F000000#32)

end Cert.Chamfer

end
-- ==== Proof.Payloads.lean ====
/-
  The kernel body's arithmetic, read at an index, on the extended reals.

  A block of a transposed cloud has shape [1, 3, 1024]: the coordinate d of a point lies on axis 1 and the point on
  axis 2.  From two such blocks A (points n) and B (points m) the body forms the tile of clamped squared distances
      max ((∑ d, A d n · A d n) + (∑ d, B d m · B d m) − 2 · (∑ d, A d n · B d m), 0):
  the two squared norms are sums over the coordinate axis with a neutral accumulator (a bare sum of three squares), the
  inner products are one matrix product into the zero accumulator (the sum over the one contracted coordinate), the
  norms are laid out as a column and as a row and broadcast over the tile.  The running minima are the minimum of the
  value held so far and the fold of min, from the word of +∞, over one axis of the tile.

  The words of 2, 0 and +∞ stay words; only the zero word that starts a sum is read as the real zero.
-/
import proofs.«111677_j11012296147710_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-- The words of +∞, 2 and 0, never evaluated. -/
abbrev c : EReal := Ideal.ofBits .f32 0x7F800000#32
abbrev two : EReal := Ideal.ofBits .f32 0x40000000#32
abbrev zero : EReal := Ideal.ofBits .f32 0x00000000#32

/-! ## Layout operations of the shapes that occur, read at an index given by coordinates -/

section Layout
variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [a] cast to [1, 1, a] reads, at (u, w, i), the vector at i. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw, Nat.zero_mul, Nat.zero_add])

/-- A [1, 1, a] array cast to the vector [a] reads, at i, the array at (0, 0, i). -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The three reductions' inserted indices, by coordinates -/

/-- Over the coordinate axis of a [3, 1024] matrix, point n with coordinate d inserted is (d, n). -/
theorem lift_coord (n : Fin 1024) (d : Fin 3) : reduces_S3x1024_S1024.lift (ix1 n) d = ix2 d n :=
  funext fun a => Fin.ext (by match a with | ⟨0, _⟩ => rfl | ⟨1, _⟩ => rfl)

/-- Over the second axis of the tile, row n with column m inserted is (n, m). -/
theorem lift_col (n m : Fin 1024) : reduces_S1024x1024_S1024.lift (ix1 n) m = ix2 n m :=
  funext fun a => Fin.ext (by match a with | ⟨0, _⟩ => rfl | ⟨1, _⟩ => rfl)

/-- Over the first axis of the tile, column m with row n inserted is (n, m). -/
theorem lift_row (m n : Fin 1024) : reduces_S1024x1024_S1024_2.lift (ix1 m) n = ix2 n m :=
  funext fun a => Fin.ext (by match a with | ⟨0, _⟩ => rfl | ⟨1, _⟩ => rfl)

/-! ## The squared norms and the inner products -/

/-- The sum over the coordinate axis, with its neutral accumulator, of the squares of a block: the squared norm of
    point n. -/
theorem sqsum_apply (v : Vec Ideal S1x3x1024 .f32) (n : Fin 1024) :
    multiReduction (F := Ideal) .add [0] S1024
        (mulf (F := Ideal) (shapeCast S3x1024 v shapeCasts_S1x3x1024_S3x1024) (shapeCast S3x1024 v shapeCasts_S1x3x1024_S3x1024))
        0x00000000#32 reduces_S3x1024_S1024 (.inl rfl) rfl (ix1 n)
      = ∑ d : Fin 3, v (ix3 0 d n) * v (ix3 0 d n) := by
  refine (Ideal.multiReduction_add_single _ _ reduces_S3x1024_S1024 (.inl rfl) rfl (ix1 n)).trans ?_
  show (∑ d : Fin 3, mulf (F := Ideal) (shapeCast S3x1024 v shapeCasts_S1x3x1024_S3x1024)
      (shapeCast S3x1024 v shapeCasts_S1x3x1024_S3x1024) (reduces_S3x1024_S1024.lift (ix1 n) d)) = _
  refine Finset.sum_congr rfl fun d _ => ?_
  rw [lift_coord, mulf_apply, shapeCast_1ab_ab_apply]

/-- The left operand's point coordinate is the tile's row. -/
theorem lhs_point (j : S1024x1024.Idx) (q : dot_S3x1024_S3x1024_S1024x1024_0_0_1_1_n_n.contr.Idx) :
    (dot_S3x1024_S3x1024_S1024x1024_0_0_1_1_n_n.lhsIdx j q 1).val = (j 0).val := by
  unfold DotDims.lhsIdx
  rw [dif_neg (show ¬(1 : Fin S3x1024.rank) ∈ dot_S3x1024_S3x1024_S1024x1024_0_0_1_1_n_n.lhsBatch by decide),
    dif_pos (show (1 : Fin S3x1024.rank) ∈ dot_S3x1024_S3x1024_S1024x1024_0_0_1_1_n_n.lhsNonContracting by decide)]
  rfl

/-- The right operand's point coordinate is the tile's column. -/
theorem rhs_point (j : S1024x1024.Idx) (q : dot_S3x1024_S3x1024_S1024x1024_0_0_1_1_n_n.contr.Idx) :
    (dot_S3x1024_S3x1024_S1024x1024_0_0_1_1_n_n.rhsIdx j q 1).val = (j 1).val := by
  unfold DotDims.rhsIdx
  rw [dif_neg (show ¬(1 : Fin S3x1024.rank) ∈ dot_S3x1024_S3x1024_S1024x1024_0_0_1_1_n_n.rhsBatch by decide),
    dif_pos (show (1 : Fin S3x1024.rank) ∈ dot_S3x1024_S3x1024_S1024x1024_0_0_1_1_n_n.rhsNonContracting by decide)]
  rfl

/-- The left operand's index of the matrix product at (n, m) and contracted coordinate k is (k, n). -/
theorem lhs_at (n m : Fin 1024) (k : Fin 3) :
    dot_S3x1024_S3x1024_S1024x1024_0_0_1_1_n_n.lhsIdx (ix2 n m)
      ((contrEquiv1 dot_S3x1024_S3x1024_S1024x1024_0_0_1_1_n_n 3 rfl rfl).symm k) = ix2 k n :=
  funext fun a => Fin.ext (by
    match a with
    | ⟨0, _⟩ =>
      exact (dot_S3x1024_S3x1024_S1024x1024_0_0_1_1_n_n.lhsIdx_val_of_single rfl _ _).trans
        (contrEquiv1_symm_val dot_S3x1024_S3x1024_S1024x1024_0_0_1_1_n_n 3 rfl rfl k)
    | ⟨1, _⟩ => exact lhs_point _ _)

/-- The right operand's index there is (k, m). -/
theorem rhs_at (n m : Fin 1024) (k : Fin 3) :
    dot_S3x1024_S3x1024_S1024x1024_0_0_1_1_n_n.rhsIdx (ix2 n m)
      ((contrEquiv1 dot_S3x1024_S3x1024_S1024x1024_0_0_1_1_n_n 3 rfl rfl).symm k) = ix2 k m :=
  funext fun a => Fin.ext (by
    match a with
    | ⟨0, _⟩ =>
      exact (dot_S3x1024_S3x1024_S1024x1024_0_0_1_1_n_n.rhsIdx_val_of_single rfl _ _).trans
        (contrEquiv1_symm_val dot_S3x1024_S3x1024_S1024x1024_0_0_1_1_n_n 3 rfl rfl k)
    | ⟨1, _⟩ => exact rhs_point _ _)

/-- The matrix product of the two blocks into the zero accumulator: the inner product of point n and point m. -/
theorem inner_apply (v10 v13 : Vec Ideal S1x3x1024 .f32) (n m : Fin 1024) :
    matmul (F := Ideal) dot_S3x1024_S3x1024_S1024x1024_0_0_1_1_n_n none
        (shapeCast S3x1024 v10 shapeCasts_S1x3x1024_S3x1024 : FVec Ideal S3x1024 .f32)
        (shapeCast S3x1024 v13 shapeCasts_S1x3x1024_S3x1024 : FVec Ideal S3x1024 .f32)
        (constant (F := Ideal) S1024x1024 .f32 0x00000000#32) (ix2 n m)
      = ∑ d : Fin 3, v10 (ix3 0 d n) * v13 (ix3 0 d m) := by
  refine (Ideal.matmul_constant_zero_apply dot_S3x1024_S3x1024_S1024x1024_0_0_1_1_n_n none _ _ (ix2 n m)).trans ?_
  rw [← Equiv.sum_comp (contrEquiv1 dot_S3x1024_S3x1024_S1024x1024_0_0_1_1_n_n 3 rfl rfl).symm]
  refine Finset.sum_congr rfl fun k _ => ?_
  rw [lhs_at, rhs_at, shapeCast_1ab_ab_apply, shapeCast_1ab_ab_apply]

/-! ## The column and the row of norms over the tile -/

/-- A vector laid out as a column and broadcast over the tile reads, at (n, m), its entry n. -/
theorem col_apply (w : FVec Ideal S1024 .f32) (n m : Fin 1024) :
    broadcastTo S1024x1024 (shapeCast S1024x1 w shapeCasts_S1024_S1024x1) broadcasts_S1024x1_S1024x1024 (ix2 n m) = w (ix1 n) := by
  rw [broadcastTo_a1_ab_apply, shapeCast_a_a1_apply]

/-- A vector laid out as a row and broadcast over the tile reads, at (n, m), its entry m. -/
theorem row_apply (w : FVec Ideal S1024 .f32) (n m : Fin 1024) :
    broadcastTo S1024x1024 (shapeCast S1x1024 w shapeCasts_S1024_S1x1024) broadcasts_S1x1024_S1024x1024 (ix2 n m) = w (ix1 m) := by
  rw [broadcastTo_1b_ab_apply, shapeCast_a_1a_apply]

/-! ## The minima over one axis of the tile -/

/-- The minimum over the second axis, from the word of +∞: the fold of min over the columns of row n. -/
theorem min_col_apply (T : FVec Ideal S1024x1024 .f32) (n : Fin 1024) :
    multiReduction (F := Ideal) .minimumf [1] S1024 T 0x7F800000#32 reduces_S1024x1024_S1024 (.inl rfl) rfl (ix1 n)
      = (Finset.univ : Finset (Fin 1024)).fold min c (fun m => T (ix2 n m)) := by
  refine (multiReduction_minimumf_eq_fold T _ reduces_S1024x1024_S1024 (.inl rfl) rfl (ix1 n)).trans ?_
  refine (reduces_S1024x1024_S1024.fold_filter_drop_single _ _ T (ix1 n)).trans ?_
  exact congrArg (fun f => (Finset.univ : Finset (Fin 1024)).fold min c f) (funext fun m => congrArg T (lift_col n m))

/-- The minimum over the first axis, from the word of +∞: the fold of min over the rows of column m. -/
theorem min_row_apply (T : FVec Ideal S1024x1024 .f32) (m : Fin 1024) :
    multiReduction (F := Ideal) .minimumf [0] S1024 T 0x7F800000#32 reduces_S1024x1024_S1024_2 (.inl rfl) rfl (ix1 m)
      = (Finset.univ : Finset (Fin 1024)).fold min c (fun n => T (ix2 n m)) := by
  refine (multiReduction_minimumf_eq_fold T _ reduces_S1024x1024_S1024_2 (.inl rfl) rfl (ix1 m)).trans ?_
  refine (reduces_S1024x1024_S1024_2.fold_filter_drop_single _ _ T (ix1 m)).trans ?_
  exact congrArg (fun f => (Finset.univ : Finset (Fin 1024)).fold min c f) (funext fun n => congrArg T (lift_row m n))

/-! ## The payloads -/

/-- The tile of clamped squared distances at (n, m). -/
theorem pay5_apply (v10 v13 : Vec Ideal S1x3x1024 .f32) (n m : Fin 1024) :
    k0_pay5 (F := Ideal) v10 v13 (ix2 n m)
      = max (((∑ d : Fin 3, v10 (ix3 0 d n) * v10 (ix3 0 d n)) + (∑ d : Fin 3, v13 (ix3 0 d m) * v13 (ix3 0 d m)))
          - two * (∑ d : Fin 3, v10 (ix3 0 d n) * v13 (ix3 0 d m))) zero := by
  unfold k0_pay5
  simp only [maximumf_apply, subf_apply, addf_apply, mulf_apply, broadcast_apply, col_apply, row_apply, inner_apply]
  exact congrArg₂ max (congrArg₂ (· - ·) (congrArg₂ (· + ·) (sqsum_apply v10 n) (sqsum_apply v13 m)) rfl) rfl

/-- The running minimum over the second cloud's points of this tile, at point n of the first cloud. -/
theorem pay6_apply (v10 v13 : Vec Ideal S1x3x1024 .f32) (v31 : Vec Ideal S1x1x1024 .f32) (n : Fin 1024) :
    k0_pay6 (F := Ideal) v10 v13 v31 (ix1 n)
      = min (v31 (ix3 0 0 n))
          ((Finset.univ : Finset (Fin 1024)).fold min c (fun m => k0_pay5 (F := Ideal) v10 v13 (ix2 n m))) := by
  unfold k0_pay6
  simp only [minimumf_apply]
  exact congrArg₂ min (shapeCast_11a_a_apply v31 _ n) (min_col_apply (k0_pay5 (F := Ideal) v10 v13) n)

/-- The running minimum over the first cloud's points of this tile, at point m of the second cloud's block. -/
theorem pay2_apply (v29 : FVec Ideal S1024x1024 .f32) (v39 : Vec Ideal S1x1x1024 .f32) (m : Fin 1024) :
    k0_pay2 (F := Ideal) v29 v39 (ix3 0 0 m)
      = min (v39 (ix3 0 0 m)) ((Finset.univ : Finset (Fin 1024)).fold min c (fun n => v29 (ix2 n m))) := by
  unfold k0_pay2
  refine (shapeCast_a_11a_apply _ _ 0 0 m).trans ?_
  simp only [minimumf_apply]
  exact congrArg₂ min (shapeCast_11a_a_apply v39 _ m) (min_row_apply v29 m)

/-- The running minimum stored back in its [1, 1, 1024] layout. -/
theorem pay1_apply (v33 : FVec Ideal S1024 .f32) (n : Fin 1024) :
    k0_pay1 (F := Ideal) v33 (ix3 0 0 n) = v33 (ix1 n) := by
  unfold k0_pay1
  exact shapeCast_a_11a_apply v33 _ 0 0 n

/-- The first running minimum starts at the word of +∞. -/
theorem pay3_apply (n : Fin 1024) : k0_pay3 (F := Ideal) (ix3 0 0 n) = c := by
  unfold k0_pay3
  exact (shapeCast_a_11a_apply _ _ 0 0 n).trans rfl

/-- The second running minimum starts at the word of +∞. -/
theorem pay4_apply (m : Fin 4096) : k0_pay4 (F := Ideal) (ix3 0 0 m) = c := by
  unfold k0_pay4
  exact (shapeCast_a_11a_apply _ _ 0 0 m).trans rfl

end Cert.KernelIdeal.Pay

end
-- ==== Proof.OutsApply.lean ====
/-
  What each case of the kernel's body leaves in the two running-minimum buffers, read at an index.

  At grid point (b, p, q) the body holds the block of 1024 points of the first cloud and, of the second cloud's 4096
  points, the 1024 from q · 1024 on.  Write T n m for the clamped squared distance between point n of the first block
  and point q · 1024 + m of the second cloud.  The row buffer (1024 entries) ends, at n, with the minimum of what it
  held (the word of +∞ after a reset) and the fold of min, from the word of +∞, of T n m over m.  The column buffer
  (4096 entries) is changed only on the entries q · 1024 … q · 1024 + 1023: entry q · 1024 + m ends with the minimum of
  what it held (the word of +∞ after a reset) and the fold of min of T n m over n; every other entry keeps what it held
  (the word of +∞ after a reset).
-/
import proofs.«111677_j11012296147710_2_alg».proof.Proof.BodyIdeal
import proofs.«111677_j11012296147710_2_alg».proof.Proof.Payloads
import Idealize.ShloMosaic.Lib.WritesUnit
import Idealize.ShloMosaic.Lib.WholeRead

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.Pay

/-! ## The second cloud's slice and the tile -/

/-- The second-cloud tile's number is below 4. -/
theorem tile_lt (i : grid0.Coords) : (i 2).val < 4 := (i 2).isLt

/-- Point m of the slice is point q · 1024 + m of the second cloud. -/
abbrev pt (i : grid0.Coords) (m : Fin 1024) : Fin 4096 := ⟨(i 2).val * 1024 + m.val, by have := tile_lt i; omega⟩

/-- The slice of the second cloud's block the body loads: coordinate d of point q · 1024 + m. -/
def blk1 (i : grid0.Coords) (x1 : Vec Ideal S1x3x4096 .f32) : Vec Ideal S1x3x1024 .f32 :=
  fun j => x1 (ix3 (0 : Fin 1) (j 1) (pt i (j 2)))

/-- The clamped squared distance between point n of the first block and point q · 1024 + m of the second cloud. -/
def tile (i : grid0.Coords) (x0 : Vec Ideal S1x3x1024 .f32) (x1 : Vec Ideal S1x3x4096 .f32) (n m : Fin 1024) : EReal :=
  max (((∑ d : Fin 3, x0 (ix3 0 d n) * x0 (ix3 0 d n)) + (∑ d : Fin 3, x1 (ix3 0 d (pt i m)) * x1 (ix3 0 d (pt i m))))
    - two * (∑ d : Fin 3, x0 (ix3 0 d n) * x1 (ix3 0 d (pt i m)))) zero

/-- The tile payload over the first block and the slice is the tile. -/
theorem pay5_tile (i : grid0.Coords) (x0 : Vec Ideal S1x3x1024 .f32) (x1 : Vec Ideal S1x3x4096 .f32) (n m : Fin 1024) :
    k0_pay5 (F := Ideal) x0 (blk1 i x1) (ix2 n m) = tile i x0 x1 n m :=
  pay5_apply x0 (blk1 i x1) n m

section loads
variable (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole)

theorem z3 : (![0, 0, 0] : Fin 3 → ℕ) = fun _ => 0 := by
  funext a; match a with | ⟨0, _⟩ => rfl | ⟨1, _⟩ => rfl | ⟨2, _⟩ => rfl

/-- The load of the first cloud's whole block reads the block. -/
theorem load0 (x0 : Vec Ideal S1x3x1024 .f32) :
    View.readAt (Elt Ideal) arg3.view (Rect.unit ![0, 0, 0] S1x3x1024.size inb_S1x3x1024_S1x3x1024_0_0_0).toLoadRect (harg3.unread x0) = x0 := by
  rw [View.readAt_eq_ld, harg3.read_unread, View.ld_unit_zero (S := S1x3x1024) z3]

/-- The load of the row buffer's whole block reads what it held. -/
theorem load2 (xo2 : Vec Ideal S1x1x1024 .f32) :
    View.readAt (Elt Ideal) arg5.view (Rect.unit ![0, 0, 0] S1x1x1024.size inb_S1x1x1024_S1x1x1024_0_0_0).toLoadRect (harg5.unread xo2) = xo2 := by
  rw [View.readAt_eq_ld, harg5.read_unread, View.ld_unit_zero (S := S1x1x1024) z3]

/-- The load of 1024 points of the second cloud's block from q · 1024 on reads the slice. -/
theorem load1 (x1 : Vec Ideal S1x3x4096 .f32) :
    View.readAt (Elt Ideal) arg4.view (Rect.unit (s := S1x3x4096) (k0_off1 i) S1x3x1024.size (k0_off1_inb i)).toLoadRect (harg4.unread x1) = blk1 i x1 := by
  refine funext fun (j : S1x3x1024.Idx) => ?_
  refine (harg4.readAt_unread x1 (Rect.unit (s := S1x3x4096) (k0_off1 i) S1x3x1024.size (k0_off1_inb i)).toLoadRect j).trans ?_
  unfold blk1
  refine congrArg x1 (funext fun a => Fin.ext ?_)
  have hoff := k0_off1_eq i
  have h0 : (j 0).val < 1 := (j 0).isLt
  match a with
  | ⟨0, _⟩ =>
    show k0_off1 i 0 + 1 * (j 0).val = 0
    rw [hoff]
    show 0 + 1 * (j 0).val = 0
    omega
  | ⟨1, _⟩ =>
    show k0_off1 i 1 + 1 * (j 1).val = (j 1).val
    rw [hoff]
    show 0 + 1 * (j 1).val = (j 1).val
    omega
  | ⟨2, _⟩ =>
    show k0_off1 i 2 + 1 * (j 2).val = (i 2).val * 1024 + (j 2).val
    rw [hoff]
    show 1024 * (i 2).val + 1 * (j 2).val = (i 2).val * 1024 + (j 2).val
    omega

end loads

/-! ## The row buffer -/

section outs
variable (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole)
  (x0 : Vec Ideal S1x3x1024 .f32) (x1 : Vec Ideal S1x3x4096 .f32)

/-- With no reset the row buffer ends as the row payload over what it held. -/
theorem outB2_eq (hc0 : ¬cond0 i) (hc1 : ¬cond1 i) (xo2 : Vec Ideal S1x1x1024 .f32) (xo3 : Vec Ideal S1x1x4096 .f32) :
    outB2 (F := Ideal) c i arg3 harg3 arg4 harg4 arg5 harg5 arg6 harg6 x0 x1 hc0 hc1 xo2 xo3
      = k0_pay1 (F := Ideal) (k0_pay6 (F := Ideal) x0 (blk1 i x1) xo2) := by
  unfold outB2
  rw [View.read_writes_eq_canon _ _ _ (coverB2 c i arg3 harg3 arg4 harg4 arg5 harg5 arg6 harg6 x0 x1 hc0 hc1 xo2 xo3)]
  unfold runB
  dsimp only
  sl_unfold_words
  refine (View.canon_unit_zero (S := S1x1x1024) z3 _ _).trans ?_
  exact congrArg (k0_pay1 (F := Ideal)) (congr (congr (congrArg (k0_pay6 (F := Ideal)) (load0 arg3 harg3 x0))
    (load1 i arg4 harg4 x1)) (load2 arg5 harg5 xo2))

/-- After both resets the row buffer ends as the row payload over the reset value. -/
theorem outA2_eq (hc0 : cond0 i) (hc1 : cond1 i) :
    outA2 (F := Ideal) c i arg3 harg3 arg4 harg4 arg5 harg5 arg6 harg6 x0 x1 hc0 hc1
      = k0_pay1 (F := Ideal) (k0_pay6 (F := Ideal) x0 (blk1 i x1) (k0_pay3 (F := Ideal))) := by
  unfold outA2
  rw [View.read_writes_eq_canon _ _ _ (coverA2 c i arg3 harg3 arg4 harg4 arg5 harg5 arg6 harg6 x0 x1 hc0 hc1)]
  unfold runA
  dsimp only
  sl_unfold_words
  refine (View.canon_cons_unit_zero (S := S1x1x1024) z3 _ _ _).trans ?_
  exact congrArg (k0_pay1 (F := Ideal)) (congr (congr (congrArg (k0_pay6 (F := Ideal)) (load0 arg3 harg3 x0))
    (load1 i arg4 harg4 x1)) (View.readCov_unit_zero (S := S1x1x1024) arg5.view z3 _ _))

/-- After the first reset only, the same. -/
theorem outC2_eq (hc0 : cond0 i) (hc1 : ¬cond1 i) (xo3 : Vec Ideal S1x1x4096 .f32) :
    outC2 (F := Ideal) c i arg3 harg3 arg4 harg4 arg5 harg5 arg6 harg6 x0 x1 hc0 hc1 xo3
      = k0_pay1 (F := Ideal) (k0_pay6 (F := Ideal) x0 (blk1 i x1) (k0_pay3 (F := Ideal))) := by
  unfold outC2
  rw [View.read_writes_eq_canon _ _ _ (coverC2 c i arg3 harg3 arg4 harg4 arg5 harg5 arg6 harg6 x0 x1 hc0 hc1 xo3)]
  unfold runC
  dsimp only
  sl_unfold_words
  refine (View.canon_cons_unit_zero (S := S1x1x1024) z3 _ _ _).trans ?_
  exact congrArg (k0_pay1 (F := Ideal)) (congr (congr (congrArg (k0_pay6 (F := Ideal)) (load0 arg3 harg3 x0))
    (load1 i arg4 harg4 x1)) (View.readCov_unit_zero (S := S1x1x1024) arg5.view z3 _ _))

/-- The row payload at n: the minimum of the value held and the least tile entry of row n. -/
theorem rowPay_apply (v : Vec Ideal S1x1x1024 .f32) (n : Fin 1024) :
    k0_pay1 (F := Ideal) (k0_pay6 (F := Ideal) x0 (blk1 i x1) v) (ix3 0 0 n)
      = min (v (ix3 0 0 n)) ((Finset.univ : Finset (Fin 1024)).fold min Pay.c (fun m => tile i x0 x1 n m)) := by
  refine (pay1_apply _ n).trans ?_
  refine (pay6_apply x0 (blk1 i x1) v n).trans ?_
  exact congrArg (fun f => min (v (ix3 0 0 n)) ((Finset.univ : Finset (Fin 1024)).fold min Pay.c f))
    (funext fun m => pay5_tile i x0 x1 n m)

theorem outB2_apply (hc0 : ¬cond0 i) (hc1 : ¬cond1 i) (xo2 : Vec Ideal S1x1x1024 .f32) (xo3 : Vec Ideal S1x1x4096 .f32)
    (n : Fin 1024) :
    outB2 (F := Ideal) c i arg3 harg3 arg4 harg4 arg5 harg5 arg6 harg6 x0 x1 hc0 hc1 xo2 xo3 (ix3 0 0 n)
      = min (xo2 (ix3 0 0 n)) ((Finset.univ : Finset (Fin 1024)).fold min Pay.c (fun m => tile i x0 x1 n m)) :=
  (congrFun (outB2_eq c i arg3 harg3 arg4 harg4 arg5 harg5 arg6 harg6 x0 x1 hc0 hc1 xo2 xo3) _).trans
    (rowPay_apply i x0 x1 xo2 n)

theorem outA2_apply (hc0 : cond0 i) (hc1 : cond1 i) (n : Fin 1024) :
    outA2 (F := Ideal) c i arg3 harg3 arg4 harg4 arg5 harg5 arg6 harg6 x0 x1 hc0 hc1 (ix3 0 0 n)
      = min Pay.c ((Finset.univ : Finset (Fin 1024)).fold min Pay.c (fun m => tile i x0 x1 n m)) :=
  (congrFun (outA2_eq c i arg3 harg3 arg4 harg4 arg5 harg5 arg6 harg6 x0 x1 hc0 hc1) _).trans
    ((rowPay_apply i x0 x1 (k0_pay3 (F := Ideal)) n).trans (by rw [pay3_apply]))

theorem outC2_apply (hc0 : cond0 i) (hc1 : ¬cond1 i) (xo3 : Vec Ideal S1x1x4096 .f32) (n : Fin 1024) :
    outC2 (F := Ideal) c i arg3 harg3 arg4 harg4 arg5 harg5 arg6 harg6 x0 x1 hc0 hc1 xo3 (ix3 0 0 n)
      = min Pay.c ((Finset.univ : Finset (Fin 1024)).fold min Pay.c (fun m => tile i x0 x1 n m)) :=
  (congrFun (outC2_eq c i arg3 harg3 arg4 harg4 arg5 harg5 arg6 harg6 x0 x1 hc0 hc1 xo3) _).trans
    ((rowPay_apply i x0 x1 (k0_pay3 (F := Ideal)) n).trans (by rw [pay3_apply]))

end outs
/-! ## The column buffer -/

section outs3
variable (c : Dev nD) (i : grid0.Coords) (arg3 : Memref sig .tc .vmem S1x3x1024 .f32) (harg3 : arg3.IsWhole) (arg4 : Memref sig .tc .vmem S1x3x4096 .f32) (harg4 : arg4.IsWhole) (arg5 : Memref sig .tc .vmem S1x1x1024 .f32) (harg5 : arg5.IsWhole) (arg6 : Memref sig .tc .vmem S1x1x4096 .f32) (harg6 : arg6.IsWhole)
  (x0 : Vec Ideal S1x3x1024 .f32) (x1 : Vec Ideal S1x3x4096 .f32)

/-- Entry m' of the column buffer within its tile of 1024. -/
abbrev loc (m' : Fin 4096) : Fin 1024 := ⟨m'.val % 1024, Nat.mod_lt _ (by decide)⟩

/-- In the tile the body is at, entry m' is the slice's point at m' mod 1024. -/
theorem pt_loc (m' : Fin 4096) (hq : m'.val / 1024 = (i 2).val) : pt i (loc m') = m' :=
  Fin.ext (by show (i 2).val * 1024 + m'.val % 1024 = m'.val; omega)

/-- The reset value of the column buffer is the word of +∞ at every entry. -/
theorem pay4_const (y : S1x1x4096.Idx) : k0_pay4 (F := Ideal) y = Pay.c := by
  obtain ⟨a, b, m, rfl⟩ : ∃ (a b : Fin 1) (m : Fin 4096), y = ix3 a b m := ⟨y 0, y 1, y 2, eq_ix3 y⟩
  obtain rfl : a = 0 := Subsingleton.elim _ _
  obtain rfl : b = 0 := Subsingleton.elim _ _
  exact pay4_apply m

/-- The load of the column buffer's slice from q · 1024 on reads what it held there. -/
theorem load3 (xo3 : Vec Ideal S1x1x4096 .f32) (m : Fin 1024) :
    View.readAt (Elt Ideal) arg6.view (Rect.unit (s := S1x1x4096) (k0_off2 i) S1x1x1024.size (k0_off2_inb i)).toLoadRect
      (harg6.unread xo3) (ix3 (0 : Fin 1) (0 : Fin 1) m) = xo3 (ix3 0 0 (pt i m)) := by
  refine (harg6.readAt_unread xo3 (Rect.unit (s := S1x1x4096) (k0_off2 i) S1x1x1024.size (k0_off2_inb i)).toLoadRect
    (ix3 (0 : Fin 1) (0 : Fin 1) m)).trans ?_
  refine congrArg xo3 (funext fun a => Fin.ext ?_)
  have hoff := k0_off2_eq i
  match a with
  | ⟨0, _⟩ =>
    show k0_off2 i 0 + 1 * 0 = 0
    rw [hoff]
    rfl
  | ⟨1, _⟩ =>
    show k0_off2 i 1 + 1 * 0 = 0
    rw [hoff]
    rfl
  | ⟨2, _⟩ =>
    show k0_off2 i 2 + 1 * m.val = (i 2).val * 1024 + m.val
    rw [hoff]
    show 1024 * (i 2).val + 1 * m.val = (i 2).val * 1024 + m.val
    omega

/-- After the reset store of the whole column buffer, every entry reads the word of +∞, through any buffer. -/
theorem reset3_read (M : Memref sig .tc .vmem S1x1x4096 .f32) (f : M.view.ty.Contents (Elt Ideal)) (y : S1x1x4096.Idx) :
    M.view.read (Elt Ideal) (M.view.writes (Elt Ideal) f
      [(⟨Rect.unit (s := S1x1x4096) ![0, 0, 0] S1x1x4096.size inb_S1x1x4096_S1x1x4096_0_0_0, k0_pay4 (F := Ideal)⟩ :
        View.Piece (Elt Ideal) S1x1x4096 .f32)]) y = Pay.c := by
  have h := View.read_writes_eq_canon M.view f
    [(⟨Rect.unit (s := S1x1x4096) ![0, 0, 0] S1x1x4096.size inb_S1x1x4096_S1x1x4096_0_0_0, k0_pay4 (F := Ideal)⟩ :
      View.Piece (Elt Ideal) S1x1x4096 .f32)]
    (fun y => ⟨_, List.mem_singleton_self _,
      View.mem_set_unit_zero (S := S1x1x4096) z3 inb_S1x1x4096_S1x1x4096_0_0_0 y⟩)
  exact (congrFun h y).trans ((congrFun (View.canon_unit_zero (S := S1x1x4096) z3 _ _) y).trans (pay4_const y))

/-- So after the reset the load of the slice reads the word of +∞. -/
theorem load3_reset (m : Fin 1024) :
    View.readAt (Elt Ideal) arg6.view (Rect.unit (s := S1x1x4096) (k0_off2 i) S1x1x1024.size (k0_off2_inb i)).toLoadRect
      (arg6.view.writes (Elt Ideal) arg6.view.junk
        [⟨Rect.unit (s := S1x1x4096) ![0, 0, 0] S1x1x4096.size inb_S1x1x4096_S1x1x4096_0_0_0, k0_pay4 (F := Ideal)⟩])
      (ix3 (0 : Fin 1) (0 : Fin 1) m) = Pay.c :=
  reset3_read arg6 arg6.view.junk _

/-- The column payload at m: the minimum of the value held and the least tile entry of column m. -/
theorem colPay_apply (v : Vec Ideal S1x1x1024 .f32) (m : Fin 1024) :
    k0_pay2 (F := Ideal) (k0_pay5 (F := Ideal) x0 (blk1 i x1)) v (ix3 0 0 m)
      = min (v (ix3 0 0 m)) ((Finset.univ : Finset (Fin 1024)).fold min Pay.c (fun n => tile i x0 x1 n m)) := by
  refine (pay2_apply _ v m).trans ?_
  exact congrArg (fun f => min (v (ix3 0 0 m)) ((Finset.univ : Finset (Fin 1024)).fold min Pay.c f))
    (funext fun n => pay5_tile i x0 x1 n m)

/-- A store of 1024 entries from q · 1024 on, the newest of a list, read at entry m': inside the tile the body is at
    the stored value at m' mod 1024, elsewhere what the earlier stores left. -/
theorem slice_store_apply (f : MO3.view.ty.Contents (Elt Ideal)) (w : Vec Ideal S1x1x1024 .f32)
    (L : List (View.Piece (Elt Ideal) S1x1x4096 .f32)) (m' : Fin 4096) :
    MO3.view.read (Elt Ideal) (MO3.view.writes (Elt Ideal) f
        ((⟨Rect.unit (s := S1x1x4096) (k0_off2 i) S1x1x1024.size (k0_off2_inb i), w⟩ : View.Piece (Elt Ideal) S1x1x4096 .f32) :: L))
        (ix3 (0 : Fin 1) (0 : Fin 1) m')
      = if m'.val / 1024 = (i 2).val then w (ix3 (0 : Fin 1) (0 : Fin 1) (loc m'))
        else MO3.view.read (Elt Ideal) (MO3.view.writes (Elt Ideal) f L) (ix3 (0 : Fin 1) (0 : Fin 1) m') := by
  by_cases hq : m'.val / 1024 = (i 2).val
  · rw [if_pos hq]
    refine View.read_writes_cons_unit_of_mem MO3.view f (k0_off2_inb i) w L (ix3 (0 : Fin 1) (0 : Fin 1) m')
      (ix3 (0 : Fin 1) (0 : Fin 1) (loc m')) (k0_off2_eq i) fun a => ?_
    match a with
    | ⟨0, _⟩ => rfl
    | ⟨1, _⟩ => rfl
    | ⟨2, _⟩ =>
      show m'.val = 1024 * (i 2).val + m'.val % 1024
      omega
  · rw [if_neg hq]
    refine View.read_writes_cons_unit_of_not_mem MO3.view f (k0_off2_inb i) w L (ix3 (0 : Fin 1) (0 : Fin 1) m')
      (k0_off2_eq i) (2 : Fin 3) ?_
    show m'.val < 1024 * (i 2).val ∨ 1024 * (i 2).val + 1024 ≤ m'.val
    omega

/-- The column payload over loads that read the first block and the slice. -/
theorem colStore_apply (A B : Vec Ideal S1x3x1024 .f32) (C : Vec Ideal S1x1x1024 .f32) (hA : A = x0) (hB : B = blk1 i x1)
    (m : Fin 1024) :
    k0_pay2 (F := Ideal) (k0_pay5 (F := Ideal) A B) C (ix3 0 0 m)
      = min (C (ix3 0 0 m)) ((Finset.univ : Finset (Fin 1024)).fold min Pay.c (fun n => tile i x0 x1 n m)) := by
  subst hA hB
  exact colPay_apply i A x1 C m

theorem outB3_apply (hc0 : ¬cond0 i) (hc1 : ¬cond1 i) (xo2 : Vec Ideal S1x1x1024 .f32) (xo3 : Vec Ideal S1x1x4096 .f32)
    (m' : Fin 4096) :
    outB3 (F := Ideal) c i arg3 harg3 arg4 harg4 arg5 harg5 arg6 harg6 x0 x1 hc0 hc1 xo2 xo3 (ix3 0 0 m')
      = if m'.val / 1024 = (i 2).val then
          min (xo3 (ix3 0 0 m')) ((Finset.univ : Finset (Fin 1024)).fold min Pay.c (fun n => tile i x0 x1 n (loc m')))
        else xo3 (ix3 0 0 m') := by
  unfold outB3 runB
  dsimp only
  sl_unfold_words
  refine (slice_store_apply i (hMO3.unread xo3) _ [] m').trans ?_
  by_cases hq : m'.val / 1024 = (i 2).val
  · rw [if_pos hq, if_pos hq]
    refine (colStore_apply i x0 x1 _ _ _ (load0 arg3 harg3 x0) (load1 i arg4 harg4 x1) (loc m')).trans ?_
    refine congrArg (fun z => min z _) ?_
    exact (load3 i arg6 harg6 xo3 (loc m')).trans (by rw [pt_loc i m' hq])
  · rw [if_neg hq, if_neg hq]
    exact congrFun (hMO3.read_unread xo3) _

theorem outC3_apply (hc0 : cond0 i) (hc1 : ¬cond1 i) (xo3 : Vec Ideal S1x1x4096 .f32) (m' : Fin 4096) :
    outC3 (F := Ideal) c i arg3 harg3 arg4 harg4 arg5 harg5 arg6 harg6 x0 x1 hc0 hc1 xo3 (ix3 0 0 m')
      = if m'.val / 1024 = (i 2).val then
          min (xo3 (ix3 0 0 m')) ((Finset.univ : Finset (Fin 1024)).fold min Pay.c (fun n => tile i x0 x1 n (loc m')))
        else xo3 (ix3 0 0 m') := by
  unfold outC3 runC
  dsimp only
  sl_unfold_words
  refine (slice_store_apply i (hMO3.unread xo3) _ [] m').trans ?_
  by_cases hq : m'.val / 1024 = (i 2).val
  · rw [if_pos hq, if_pos hq]
    refine (colStore_apply i x0 x1 _ _ _ (load0 arg3 harg3 x0) (load1 i arg4 harg4 x1) (loc m')).trans ?_
    refine congrArg (fun z => min z _) ?_
    exact (load3 i arg6 harg6 xo3 (loc m')).trans (by rw [pt_loc i m' hq])
  · rw [if_neg hq, if_neg hq]
    exact congrFun (hMO3.read_unread xo3) _

theorem outA3_apply (hc0 : cond0 i) (hc1 : cond1 i) (m' : Fin 4096) :
    outA3 (F := Ideal) c i arg3 harg3 arg4 harg4 arg5 harg5 arg6 harg6 x0 x1 hc0 hc1 (ix3 0 0 m')
      = if m'.val / 1024 = (i 2).val then
          min Pay.c ((Finset.univ : Finset (Fin 1024)).fold min Pay.c (fun n => tile i x0 x1 n (loc m')))
        else Pay.c := by
  unfold outA3 runA
  dsimp only
  sl_unfold_words
  refine (slice_store_apply i MO3.view.junk _ _ m').trans ?_
  by_cases hq : m'.val / 1024 = (i 2).val
  · rw [if_pos hq, if_pos hq]
    refine (colStore_apply i x0 x1 _ _ _ (load0 arg3 harg3 x0) (load1 i arg4 harg4 x1) (loc m')).trans ?_
    refine congrArg (fun z => min z _) ?_
    exact load3_reset i arg6 (loc m')
  · rw [if_neg hq, if_neg hq]
    exact reset3_read MO3 MO3.view.junk _

end outs3

end Cert.KernelIdeal.Body

end
-- ==== Proof.Blocks.lean ====
/-
  From blocks to arrays, on the kernel's side.

  The grid is 8 × 4 × 4, row-major: point `t` works on batch `t / 16`, on tile `t / 4 % 4` of the first cloud
  and tile `t % 4` of the second.  The two clouds reach the kernel transposed, [8, 3, 4096]: the first cloud's
  block at a point holds its tile's 1024 points of the batch (coordinate `d` of point `n` of the tile is
  coordinate `d` of point `tile · 1024 + n` of the cloud), the second cloud's block all 4096 points of the batch.
  The first result array, [8, 1, 4096], is written back tile by tile, after the last second-cloud tile of each
  first-cloud tile (`t % 4 = 3`); the second, block [1, 1, 4096], once per batch, after the batch's last point
  (`t % 16 = 15`).  Every index of either array lies in exactly such a block, so if what is written back at these
  points is the nearest distances of the block's points, the arrays end holding the nearest distances.
-/
import proofs.«111677_j11012296147710_2_alg».proof.Proof.BodyIdeal
import proofs.«111677_j11012296147710_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Body

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The grid's coordinates and the windows' block indices, decided over the 128 points -/

/-- Point `t` is (batch, first-cloud tile, second-cloud tile) = (t / 16, t / 4 % 4, t % 4). -/
theorem coords_val : ∀ t : Fin cfg0.N, ((grid0.coords t) 0).val = t.val / 16 ∧ ((grid0.coords t) 1).val = t.val / 4 % 4
    ∧ ((grid0.coords t) 2).val = t.val % 4 :=
  (by decide +kernel : ∀ t : Fin grid0.N, _)

/-- The block index of each window at point `t`. -/
theorem idx_facts : ∀ t : Fin cfg0.N,
    win0_0.index t (0 : Fin 3) = t.val / 16 ∧ win0_0.index t (1 : Fin 3) = 0 ∧ win0_0.index t (2 : Fin 3) = t.val / 4 % 4
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = t.val / 4 % 4
    ∧ win0_3.index t (0 : Fin 3) = t.val / 16 ∧ win0_3.index t (1 : Fin 3) = 0 ∧ win0_3.index t (2 : Fin 3) = 0 :=
  (by decide +kernel : ∀ t : Fin grid0.N, _)

theorem t_lt (t : Fin cfg0.N) : t.val < 128 := lt_of_lt_of_eq t.isLt (show cfg0.N = 128 from N_0)
/-- The batch of a point is one of the 8. -/
theorem b_lt (t : Fin cfg0.N) : t.val / 16 < 8 := by have := t_lt t; omega
/-- Point `n` of the point's first-cloud tile is one of the 4096. -/
theorem n_lt (t : Fin cfg0.N) (n : Fin 1024) : t.val / 4 % 4 * 1024 + n.val < 4096 := by omega

/-! ## The input blocks -/

/-- The first window's array, as the region finds it, is the first cloud transposed. -/
theorem V_v0 (c : Dev nD) : (V m c main_v0 : S8x3x4096.Idx → EReal)
    = transpose S8x3x4096 [0, 2, 1] (m ((c : Thread nD τ).loc main_arg0)) transposes_S8x4096x3_S8x3x4096_0_2_1 := by
  show StableHlo.after hostOps0 (fun b => m (c, b)) (Proc.devRef .tc main_v0) = _
  after_results

/-- The second window's array is the second cloud transposed. -/
theorem V_v1 (c : Dev nD) : (V m c main_v1 : S8x3x4096.Idx → EReal)
    = transpose S8x3x4096 [0, 2, 1] (m ((c : Thread nD τ).loc main_arg1)) transposes_S8x4096x3_S8x3x4096_0_2_1 := by
  show StableHlo.after hostOps0 (fun b => m (c, b)) (Proc.devRef .tc main_v1) = _
  after_results

/-- The first cloud's block at point `t`: coordinate `d` of point `n` of the point's tile. -/
theorem iblk0_apply (c : Dev nD) (t : Fin cfg0.N) (d : Fin 3) (n : Fin 1024) :
    (iblk m c 0 t : Vec Ideal S1x3x1024 .f32) (ix3 0 d n)
      = (m ((c : Thread nD τ).loc main_arg0) : Cert.Chamfer.Cloud)
          (ix3 ⟨t.val / 16, b_lt t⟩ ⟨t.val / 4 % 4 * 1024 + n.val, n_lt t n⟩ d) := by
  obtain ⟨e0, e1, e2, -⟩ := idx_facts t
  unfold iblk
  rw [View.read_apply]
  show (V m c main_v0 : S8x3x4096.Idx → EReal) _ = _
  rw [V_v0]
  refine transpose_apply _ _ _ _ _ fun a => ?_
  match a with
  | ⟨0, _⟩ => show t.val / 16 = win0_0.index t (0 : Fin 3) * 1 + 1 * 0; omega
  | ⟨1, _⟩ => show d.val = win0_0.index t (1 : Fin 3) * 3 + 1 * d.val; omega
  | ⟨2, _⟩ => show t.val / 4 % 4 * 1024 + n.val = win0_0.index t (2 : Fin 3) * 1024 + 1 * n.val; omega

/-- The second cloud's block at point `t`: coordinate `d` of point `k` of the batch. -/
theorem iblk1_apply (c : Dev nD) (t : Fin cfg0.N) (d : Fin 3) (k : Fin 4096) :
    (iblk m c 1 t : Vec Ideal S1x3x4096 .f32) (ix3 0 d k)
      = (m ((c : Thread nD τ).loc main_arg1) : Cert.Chamfer.Cloud) (ix3 ⟨t.val / 16, b_lt t⟩ k d) := by
  obtain ⟨-, -, -, e0, e1, e2, -⟩ := idx_facts t
  unfold iblk
  rw [View.read_apply]
  show (V m c main_v1 : S8x3x4096.Idx → EReal) _ = _
  rw [V_v1]
  refine transpose_apply _ _ _ _ _ fun a => ?_
  match a with
  | ⟨0, _⟩ => show t.val / 16 = win0_1.index t (0 : Fin 3) * 1 + 1 * 0; omega
  | ⟨1, _⟩ => show d.val = win0_1.index t (1 : Fin 3) * 3 + 1 * d.val; omega
  | ⟨2, _⟩ => show k.val = win0_1.index t (2 : Fin 3) * 4096 + 1 * k.val; omega

/-! ## The result arrays -/

/-- Every index of a [1, 1, k] block is (0, 0, n). -/
theorem exists_ix3_unit {k : ℕ} (y : (⟨3, ![1, 1, k]⟩ : Shape).Idx) : ∃ n : Fin k, y = ix3 (0 : Fin 1) (0 : Fin 1) n :=
  ⟨y 2, funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl)⟩

/-- The nearest distances of the first cloud's points, as contents of the first result array. -/
abbrev near1Arr (c : Dev nD) : Buf (Elt Ideal) ((c : Thread nD τ).loc main_v2_0) :=
  fun (j : S8x1x4096.Idx) => Cert.Chamfer.near1 (m ((c : Thread nD τ).loc main_arg0)) (m ((c : Thread nD τ).loc main_arg1)) (j 0) (j 2)

/-- The nearest distances of the second cloud's points, as contents of the second result array. -/
abbrev near2Arr (c : Dev nD) : Buf (Elt Ideal) ((c : Thread nD τ).loc main_v2_1) :=
  fun (j : S8x1x4096.Idx) => Cert.Chamfer.near2 (m ((c : Thread nD τ).loc main_arg0)) (m ((c : Thread nD τ).loc main_arg1)) (j 0) (j 2)

/-- What a point with `t % 4 = 3` writes back of the first result is its block of the nearest distances, if the
    running minimum it holds there is the nearest distance of each of the tile's points. -/
theorem flushed2_eq (c : Dev nD)
    (h : ∀ t : Fin cfg0.N, t.val % 4 = 3 → ∀ n : Fin 1024, (outsAt m c t.val t.isLt).1 (ix3 0 0 n)
      = Cert.Chamfer.near1 (m ((c : Thread nD τ).loc main_arg0)) (m ((c : Thread nD τ).loc main_arg1))
          ⟨t.val / 16, b_lt t⟩ ⟨t.val / 4 % 4 * 1024 + n.val, n_lt t n⟩)
    (t : Fin cfg0.N) (hf : (cfg0.win 2).flush t = true) :
    (dats m 0 c).flushed 2 t = ((cfg0.win 2).blk t).view.read (Elt Ideal) (near1Arr m c) := by
  have h3 : t.val % 4 = 3 := (flush0_2 t).mp hf
  obtain ⟨-, -, -, -, -, -, e0, e1, e2, -⟩ := idx_facts t
  show (cfg0.win 2).cut (grid0.coords t) ((dats m 0 c).after 2 t) = _
  rw [after2]
  refine funext fun (y : S1x1x1024.Idx) => ?_
  obtain ⟨n, rfl⟩ := exists_ix3_unit y
  refine (h t h3 n).trans ?_
  rw [View.read_apply]
  exact congrArg₂ (Cert.Chamfer.near1 _ _)
    (Fin.ext (show t.val / 16 = win0_2.index t (0 : Fin 3) * 1 + 1 * 0 by omega))
    (Fin.ext (show t.val / 4 % 4 * 1024 + n.val = win0_2.index t (2 : Fin 3) * 1024 + 1 * n.val by omega))

/-- The first result array ends holding the nearest distances of the first cloud's points: index (b, 0, n) is written
    back by the point of batch `b`, first-cloud tile `n / 1024`, last second-cloud tile. -/
theorem final2 (c : Dev nD)
    (h : ∀ t : Fin cfg0.N, t.val % 4 = 3 → ∀ n : Fin 1024, (outsAt m c t.val t.isLt).1 (ix3 0 0 n)
      = Cert.Chamfer.near1 (m ((c : Thread nD τ).loc main_arg0)) (m ((c : Thread nD τ).loc main_arg1))
          ⟨t.val / 16, b_lt t⟩ ⟨t.val / 4 % 4 * 1024 + n.val, n_lt t n⟩) :
    (dats m 0 c).arrAt 2 cfg0.N = near1Arr m c :=
  (dats m 0 c).arrAt_eq_of_cover 2 (near1Arr m c) (flushed2_eq m c h) fun i => by
    have h0 : (i 0 : Nat) < 8 := (i 0).isLt
    have h1 : (i 1 : Nat) < 1 := (i 1).isLt
    have h2 : (i 2 : Nat) < 4096 := (i 2).isLt
    have hlt : 16 * (i 0 : Nat) + 4 * ((i 2 : Nat) / 1024) + 3 < cfg0.N := by rw [show cfg0.N = 128 from N_0]; omega
    refine ⟨⟨16 * (i 0 : Nat) + 4 * ((i 2 : Nat) / 1024) + 3, hlt⟩, (flush0_2 _).mpr (by
      show (16 * (i 0 : Nat) + 4 * ((i 2 : Nat) / 1024) + 3) % 4 = 3; omega), ?_⟩
    obtain ⟨-, -, -, -, -, -, e0, e1, e2, -⟩ := idx_facts ⟨16 * (i 0 : Nat) + 4 * ((i 2 : Nat) / 1024) + 3, hlt⟩
    dsimp only at e0 e1 e2
    show i ∈ ((View.whole main_v2_0).slice (win0_2.rect ⟨16 * (i 0 : Nat) + 4 * ((i 2 : Nat) / 1024) + 3, hlt⟩)).set
    rw [View.set_slice_whole, Rect.mem_set_unit]
    intro a
    match a with
    | ⟨0, _⟩ =>
      show win0_2.index ⟨16 * (i 0 : Nat) + 4 * ((i 2 : Nat) / 1024) + 3, hlt⟩ (0 : Fin 3) * 1 ≤ (i 0 : Nat)
        ∧ (i 0 : Nat) < win0_2.index ⟨16 * (i 0 : Nat) + 4 * ((i 2 : Nat) / 1024) + 3, hlt⟩ (0 : Fin 3) * 1 + 1
      omega
    | ⟨1, _⟩ =>
      show win0_2.index ⟨16 * (i 0 : Nat) + 4 * ((i 2 : Nat) / 1024) + 3, hlt⟩ (1 : Fin 3) * 1 ≤ (i 1 : Nat)
        ∧ (i 1 : Nat) < win0_2.index ⟨16 * (i 0 : Nat) + 4 * ((i 2 : Nat) / 1024) + 3, hlt⟩ (1 : Fin 3) * 1 + 1
      omega
    | ⟨2, _⟩ =>
      show win0_2.index ⟨16 * (i 0 : Nat) + 4 * ((i 2 : Nat) / 1024) + 3, hlt⟩ (2 : Fin 3) * 1024 ≤ (i 2 : Nat)
        ∧ (i 2 : Nat) < win0_2.index ⟨16 * (i 0 : Nat) + 4 * ((i 2 : Nat) / 1024) + 3, hlt⟩ (2 : Fin 3) * 1024 + 1024
      omega

/-- What a point with `t % 16 = 15` writes back of the second result is its batch's nearest distances, if the
    running minima it holds there are the nearest distances of the batch's points. -/
theorem flushed3_eq (c : Dev nD)
    (h : ∀ t : Fin cfg0.N, t.val % 16 = 15 → ∀ k : Fin 4096, (outsAt m c t.val t.isLt).2 (ix3 0 0 k)
      = Cert.Chamfer.near2 (m ((c : Thread nD τ).loc main_arg0)) (m ((c : Thread nD τ).loc main_arg1)) ⟨t.val / 16, b_lt t⟩ k)
    (t : Fin cfg0.N) (hf : (cfg0.win 3).flush t = true) :
    (dats m 0 c).flushed 3 t = ((cfg0.win 3).blk t).view.read (Elt Ideal) (near2Arr m c) := by
  have h3 : t.val % 16 = 15 := (flush0_3 t).mp hf
  obtain ⟨-, -, -, -, -, -, -, -, -, e0, e1, e2⟩ := idx_facts t
  show (cfg0.win 3).cut (grid0.coords t) ((dats m 0 c).after 3 t) = _
  rw [after3]
  refine funext fun (y : S1x1x4096.Idx) => ?_
  obtain ⟨k, rfl⟩ := exists_ix3_unit y
  refine (h t h3 k).trans ?_
  rw [View.read_apply]
  exact congrArg₂ (Cert.Chamfer.near2 _ _)
    (Fin.ext (show t.val / 16 = win0_3.index t (0 : Fin 3) * 1 + 1 * 0 by omega))
    (Fin.ext (show k.val = win0_3.index t (2 : Fin 3) * 4096 + 1 * k.val by omega))

/-- The second result array ends holding the nearest distances of the second cloud's points: index (b, 0, k) is
    written back by the last point of batch `b`. -/
theorem final3 (c : Dev nD)
    (h : ∀ t : Fin cfg0.N, t.val % 16 = 15 → ∀ k : Fin 4096, (outsAt m c t.val t.isLt).2 (ix3 0 0 k)
      = Cert.Chamfer.near2 (m ((c : Thread nD τ).loc main_arg0)) (m ((c : Thread nD τ).loc main_arg1)) ⟨t.val / 16, b_lt t⟩ k) :
    (dats m 0 c).arrAt 3 cfg0.N = near2Arr m c :=
  (dats m 0 c).arrAt_eq_of_cover 3 (near2Arr m c) (flushed3_eq m c h) fun i => by
    have h0 : (i 0 : Nat) < 8 := (i 0).isLt
    have h1 : (i 1 : Nat) < 1 := (i 1).isLt
    have h2 : (i 2 : Nat) < 4096 := (i 2).isLt
    have hlt : 16 * (i 0 : Nat) + 15 < cfg0.N := by rw [show cfg0.N = 128 from N_0]; omega
    refine ⟨⟨16 * (i 0 : Nat) + 15, hlt⟩, (flush0_3 _).mpr (by show (16 * (i 0 : Nat) + 15) % 16 = 15; omega), ?_⟩
    obtain ⟨-, -, -, -, -, -, -, -, -, e0, e1, e2⟩ := idx_facts ⟨16 * (i 0 : Nat) + 15, hlt⟩
    dsimp only at e0 e1 e2
    show i ∈ ((View.whole main_v2_1).slice (win0_3.rect ⟨16 * (i 0 : Nat) + 15, hlt⟩)).set
    rw [View.set_slice_whole, Rect.mem_set_unit]
    intro a
    match a with
    | ⟨0, _⟩ =>
      show win0_3.index ⟨16 * (i 0 : Nat) + 15, hlt⟩ (0 : Fin 3) * 1 ≤ (i 0 : Nat)
        ∧ (i 0 : Nat) < win0_3.index ⟨16 * (i 0 : Nat) + 15, hlt⟩ (0 : Fin 3) * 1 + 1
      omega
    | ⟨1, _⟩ =>
      show win0_3.index ⟨16 * (i 0 : Nat) + 15, hlt⟩ (1 : Fin 3) * 1 ≤ (i 1 : Nat)
        ∧ (i 1 : Nat) < win0_3.index ⟨16 * (i 0 : Nat) + 15, hlt⟩ (1 : Fin 3) * 1 + 1
      omega
    | ⟨2, _⟩ =>
      show win0_3.index ⟨16 * (i 0 : Nat) + 15, hlt⟩ (2 : Fin 3) * 4096 ≤ (i 2 : Nat)
        ∧ (i 2 : Nat) < win0_3.index ⟨16 * (i 0 : Nat) + 15, hlt⟩ (2 : Fin 3) * 4096 + 4096
      omega

end Cert.KernelIdeal.Body

end
-- ==== Proof.RunningMin.lean ====
/-
  The running minima.  The 4096 points of a cloud are cut into four tiles of 1024.  A minimum over all 4096
  points, folded from a fixed starting value, can be accumulated tile by tile: start from the starting value,
  and at each step take the minimum of what has been accumulated with the minimum, folded from the same starting
  value, over one more tile.  Because `min` in a linear order is associative, commutative and idempotent, a
  number `z` lies below a fold of `min` from `c` over a set exactly when it lies below `c` and below every
  term; so "the numbers below the accumulated value" are at every step "the numbers below `c` and below every
  term of the tiles met so far", whatever `c` is (it may be folded in any number of times).  After the last
  tile these are the numbers below the full minimum, and two elements with the same lower bounds are equal.

  Rows: point `n` of the first cloud meets the four tiles of the second cloud in order (four steps).
  Columns: sixteen steps; step `s` brings tile `s / 4` of the first cloud to the slice `s % 4` of the 4096
  running column minima, the other slices unchanged.  After step `s` a column in slice `q` has met the first
  `s / 4 + 1` tiles if `q ≤ s % 4`, the first `s / 4` otherwise; after step 15 that is all four.
-/
import proofs.«111677_j11012296147710_2_alg».proof.Proof.Spec

noncomputable section

namespace Cert.Chamfer

/-! ## Tiles of a minimum, in any linear order -/

section Tiles

variable {α : Type} [LinearOrder α]

/-- The minimum, folded from `c`, of `f` over tile `k`: the indices `k * 1024 + m`, `m < 1024`. -/
def tileMin (c : α) (f : Fin 4096 → α) (k : Fin 4) : α :=
  (Finset.univ : Finset (Fin 1024)).fold min c (fun m => f ⟨k.val * 1024 + m.val, by omega⟩)

/-- `z` lies below `c` and below `f` on the first `t` tiles. -/
def Below (c : α) (f : Fin 4096 → α) (t : ℕ) (z : α) : Prop :=
  z ≤ c ∧ ∀ m : Fin 4096, m.val / 1024 < t → z ≤ f m

/-- The lower bounds of a tile's minimum: those of `c` and of `f` at every index of the tile. -/
theorem le_tileMin_iff (c : α) (f : Fin 4096 → α) (k : Fin 4) (z : α) :
    z ≤ tileMin c f k ↔ z ≤ c ∧ ∀ m : Fin 4096, m.val / 1024 = k.val → z ≤ f m := by
  unfold tileMin
  rw [Finset.le_fold_min]
  refine and_congr_right fun _ => ⟨fun h m hm => ?_, fun h m _ => h _ ?_⟩
  · have hm' : m.val % 1024 < 1024 := Nat.mod_lt _ (by norm_num)
    have key := h ⟨m.val % 1024, hm'⟩ (Finset.mem_univ _)
    have e : (⟨k.val * 1024 + m.val % 1024, by omega⟩ : Fin 4096) = m :=
      Fin.ext (by show k.val * 1024 + m.val % 1024 = m.val; omega)
    exact (congrArg (fun x => z ≤ f x) e).mp key
  · show (k.val * 1024 + m.val) / 1024 = k.val
    omega

theorem below_zero (c : α) (f : Fin 4096 → α) (z : α) : Below c f 0 z ↔ z ≤ c :=
  ⟨fun h => h.1, fun h => ⟨h, fun _ hm => absurd hm (Nat.not_lt_zero _)⟩⟩

/-- One more tile: the lower bounds of the minimum of the accumulated value with the next tile's minimum. -/
theorem below_succ (c : α) (f : Fin 4096 → α) (t : ℕ) (ht : t < 4) (z : α) :
    Below c f (t + 1) z ↔ Below c f t z ∧ z ≤ tileMin c f ⟨t, ht⟩ := by
  rw [le_tileMin_iff]
  unfold Below
  constructor
  · rintro ⟨h1, h2⟩
    exact ⟨⟨h1, fun m hm => h2 m (by omega)⟩, h1, fun m (hm : m.val / 1024 = t) => h2 m (by omega)⟩
  · rintro ⟨⟨h1, h2⟩, _, h3⟩
    refine ⟨h1, fun m hm => ?_⟩
    rcases Nat.lt_succ_iff_lt_or_eq.mp hm with h | h
    · exact h2 m h
    · exact h3 m h

/-- All four tiles: the lower bounds of the minimum over every index. -/
theorem below_four (c : α) (f : Fin 4096 → α) (z : α) :
    Below c f 4 z ↔ z ≤ (Finset.univ : Finset (Fin 4096)).fold min c f := by
  rw [Finset.le_fold_min]
  unfold Below
  exact and_congr_right fun _ => ⟨fun h m _ => h m (by omega), fun h m _ => h m (Finset.mem_univ _)⟩

end Tiles

/-! ## The tiles of the clamped distances -/

/-- The least clamped distance from point `n` of the first cloud to tile `k` of the second, from the word of +∞. -/
def rowMin (P Q : Cloud) (b : Fin 8) (n : Fin 4096) (k : Fin 4) : EReal :=
  (Finset.univ : Finset (Fin 1024)).fold min top (fun m => dd P Q b n ⟨k.val * 1024 + m.val, by omega⟩)

/-- The least clamped distance from tile `j` of the first cloud to point `m` of the second, from the word of +∞. -/
def colMin (P Q : Cloud) (b : Fin 8) (j : Fin 4) (m : Fin 4096) : EReal :=
  (Finset.univ : Finset (Fin 1024)).fold min top (fun n => dd P Q b ⟨j.val * 1024 + n.val, by omega⟩ m)

theorem rowMin_eq (P Q : Cloud) (b : Fin 8) (n : Fin 4096) (k : Fin 4) :
    rowMin P Q b n k = tileMin top (fun m => dd P Q b n m) k := rfl

theorem colMin_eq (P Q : Cloud) (b : Fin 8) (j : Fin 4) (m : Fin 4096) :
    colMin P Q b j m = tileMin top (fun n => dd P Q b n m) j := rfl

/-! ## Rows: four steps -/

/-- The running minimum of a row over the four tiles of the second cloud ends at the nearest distance. -/
theorem rows_final (P Q : Cloud) (b : Fin 8) (n : Fin 4096) (a : Fin 4 → EReal)
    (h0 : a 0 = min top (rowMin P Q b n 0))
    (hs : ∀ k : Fin 4, k.val ≠ 0 → a k = min (a ⟨k.val - 1, by omega⟩) (rowMin P Q b n k)) :
    a 3 = near1 P Q b n := by
  have inv : ∀ (j : ℕ) (hj : j < 4) (z : EReal),
      z ≤ a ⟨j, hj⟩ ↔ Below top (fun m => dd P Q b n m) (j + 1) z := by
    intro j
    induction j with
    | zero =>
      intro hj z
      have e : a ⟨0, hj⟩ = min top (tileMin top (fun m => dd P Q b n m) ⟨0, hj⟩) := h0
      rw [e, le_min_iff, below_succ top _ 0 hj z, below_zero]
    | succ j ih =>
      intro hj z
      have e : a ⟨j + 1, hj⟩ = min (a ⟨j, by omega⟩) (tileMin top (fun m => dd P Q b n m) ⟨j + 1, hj⟩) :=
        hs ⟨j + 1, hj⟩ (Nat.succ_ne_zero j)
      rw [e, le_min_iff, ih (by omega) z, below_succ top _ (j + 1) hj z]
  refine eq_of_forall_le_iff fun z => ?_
  exact (inv 3 (by omega) z).trans (below_four top _ z)

/-! ## Columns: sixteen steps -/

/-- How many tiles of the first cloud a column in slice `q` has met after step `s`. -/
def met (s q : ℕ) : ℕ := if q ≤ s % 4 then s / 4 + 1 else s / 4

/-- The running column minima, updated slice by slice over the sixteen steps, end at the nearest distances. -/
theorem cols_final (P Q : Cloud) (b : Fin 8) (a : Fin 16 → Fin 4096 → EReal)
    (h0 : ∀ m : Fin 4096, a 0 m = if m.val / 1024 = 0 then min top (colMin P Q b 0 m) else top)
    (hs : ∀ s : Fin 16, s.val ≠ 0 → ∀ m : Fin 4096,
      a s m = if m.val / 1024 = s.val % 4
        then min (a ⟨s.val - 1, by omega⟩ m) (colMin P Q b ⟨s.val / 4, by omega⟩ m)
        else a ⟨s.val - 1, by omega⟩ m) :
    ∀ m, a 15 m = near2 P Q b m := by
  have inv : ∀ (s : ℕ) (hs' : s < 16) (m : Fin 4096) (z : EReal),
      z ≤ a ⟨s, hs'⟩ m ↔ Below top (fun n => dd P Q b n m) (met s (m.val / 1024)) z := by
    intro s
    induction s with
    | zero =>
      intro hs' m z
      by_cases hq : m.val / 1024 = 0
      · have e : a ⟨0, hs'⟩ m = min top (tileMin top (fun n => dd P Q b n m) ⟨0, by omega⟩) :=
          (h0 m).trans (if_pos hq)
        have hc : met 0 (m.val / 1024) = 0 + 1 := by unfold met; split_ifs <;> omega
        rw [e, hc, le_min_iff, below_succ top _ 0 (by omega) z, below_zero]
      · have e : a ⟨0, hs'⟩ m = top := (h0 m).trans (if_neg hq)
        have hc : met 0 (m.val / 1024) = 0 := by unfold met; split_ifs <;> omega
        rw [e, hc, below_zero]
    | succ s ih =>
      intro hs' m z
      have hstep := hs ⟨s + 1, hs'⟩ (Nat.succ_ne_zero s) m
      by_cases hq : m.val / 1024 = (s + 1) % 4
      · have e : a ⟨s + 1, hs'⟩ m
            = min (a ⟨s, by omega⟩ m) (tileMin top (fun n => dd P Q b n m) ⟨(s + 1) / 4, by omega⟩) :=
          hstep.trans (if_pos hq)
        have hc : met (s + 1) (m.val / 1024) = (s + 1) / 4 + 1 := by unfold met; split_ifs <;> omega
        have hk : met s (m.val / 1024) = (s + 1) / 4 := by unfold met; split_ifs <;> omega
        rw [e, le_min_iff, ih (by omega) m z, hc, hk, below_succ top _ ((s + 1) / 4) (by omega) z]
      · have e : a ⟨s + 1, hs'⟩ m = a ⟨s, by omega⟩ m := hstep.trans (if_neg hq)
        have hc : met (s + 1) (m.val / 1024) = met s (m.val / 1024) := by unfold met; split_ifs <;> omega
        rw [e, hc]
        exact ih (by omega) m z
  intro m
  refine eq_of_forall_le_iff fun z => ?_
  have hc : met 15 (m.val / 1024) = 4 := by unfold met; split_ifs <;> omega
  have h15 := inv 15 (by omega) m z
  rw [hc] at h15
  exact h15.trans (below_four top _ z)

end Cert.Chamfer

end
-- ==== Proof.KernelValue.lean ====
/-
  The kernel's value: what the program leaves in its result, as the specification's loss of the two clouds.

  After the region the two result arrays hold the nearest squared distances (the running minima as the last
  point of each row tile, respectively of each batch, left them).  The host operations after the region are
  the specification's own tail (reshape away the unit axis, square roots, the sum from zero over all points,
  the division by their number, the sum of the two means, the half).
-/
import proofs.«111677_j11012296147710_2_alg».proof.Proof.BodyIdeal
import proofs.«111677_j11012296147710_2_alg».proof.Proof.Spec
import proofs.«111677_j11012296147710_2_alg».proof.Proof.OutsApply
import proofs.«111677_j11012296147710_2_alg».proof.Proof.Blocks
import proofs.«111677_j11012296147710_2_alg».proof.Proof.RunningMin
import Idealize.ShloMosaic.Lib.StableHlo.Run
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Chamfer

variable (m : (ℓ : Loc nD τ sig) → Buf (Elt Ideal) ℓ) (ρ : Dev nD → PrngReg)

/-- Dropping the unit middle axis of an [8, 1, 4096] array: entry (b, n) is entry (b, 0, n). -/
theorem shapeCast_drop_mid {α : Type} (x : S8x1x4096.Idx → α) (h : S8x1x4096.ShapeCasts S8x4096) (b : Fin 8) (n : Fin 4096) :
    shapeCast S8x4096 x h (ix2 b n) = x (ix3 b (0 : Fin 1) n) :=
  shapeCast_apply x h _ _ (by
    rw [Shape.rowMajor_val_three, Shape.rowMajor_val_two]
    show (b.val * 1 + 0) * 4096 + n.val = b.val * 4096 + n.val
    omega)

/-- The host operations after the region make the specification's loss of the two result arrays, once these hold
    the nearest squared distances. -/
theorem tail_eq (c : Dev nD) (P Q : Cloud)
    (h2 : (dats m 0 c).arrAt 2 cfg0.N = (fun j => near1 P Q (j 0) (j 2) : S8x1x4096.Idx → EReal))
    (h3 : (dats m 0 c).arrAt 3 cfg0.N = (fun j => near2 P Q (j 0) (j 2) : S8x1x4096.Idx → EReal)) :
    Pipeline.afterTail₀ cfgs (dats m) 0 (V0 m) [hostOps1] c main_v12 = Cert.Chamfer.loss P Q := by
  have e2 : (Pipeline.withArrays (cfgs 0).spec c (V0 m c) (fun w => (dats m 0 c).arrAt w (cfgs 0).N) (Proc.devRef .tc main_v2_0) : S8x1x4096.Idx → EReal) = fun j => near1 P Q (j 0) (j 2) :=
    (Pipeline.withArrays_arr spec0 launch0.win.arr_inj c (V0 m c) (fun w => (dats m 0 c).arrAt w (cfgs 0).N) 2).trans h2
  have e3 : (Pipeline.withArrays (cfgs 0).spec c (V0 m c) (fun w => (dats m 0 c).arrAt w (cfgs 0).N) (Proc.devRef .tc main_v2_1) : S8x1x4096.Idx → EReal) = fun j => near2 P Q (j 0) (j 2) :=
    (Pipeline.withArrays_arr spec0 launch0.win.arr_inj c (V0 m c) (fun w => (dats m 0 c).arrAt w (cfgs 0).N) 3).trans h3
  unfold Pipeline.afterTail₀
  show StableHlo.after hostOps1 _ (Proc.devRef .tc main_v12) = _
  after_results
  have s1 : (fun i => shapeCast S8x4096 (fun j : S8x1x4096.Idx => near1 P Q (j 0) (j 2)) shapeCasts_S8x1x4096_S8x4096 i) = near1A P Q := by
    funext i
    obtain ⟨b, n, rfl⟩ : ∃ (b : Fin 8) (n : Fin 4096), i = ix2 b n := ⟨i 0, i 1, eq_ix2 i⟩
    rw [shapeCast_drop_mid]; rfl
  have s2 : (fun i => shapeCast S8x4096 (fun j : S8x1x4096.Idx => near2 P Q (j 0) (j 2)) shapeCasts_S8x1x4096_S8x4096 i) = near2A P Q := by
    funext i
    obtain ⟨b, n, rfl⟩ : ∃ (b : Fin 8) (n : Fin 4096), i = ix2 b n := ⟨i 0, i 1, eq_ix2 i⟩
    rw [shapeCast_drop_mid]; rfl
  rw [e2, e3]
  exact congrArg₂ (fun A B => mulf (F := Ideal) (addf (F := Ideal) (meanSqrt A) (meanSqrt B)) (constant (F := Ideal) SOne .f32 0x3F000000#32)) s1 s2

/-! ## The running minima, point by point, are the specification's tile minima -/

/-- The two clouds, as the program is launched with them. -/
abbrev cloudP (c : Dev nD) : Cloud := m ((c : Thread nD τ).loc main_arg0)
abbrev cloudQ (c : Dev nD) : Cloud := m ((c : Thread nD τ).loc main_arg1)

theorem N128 : cfg0.N = 128 := N_0
theorem lt_N {s : ℕ} (h : s < 128) : s < cfg0.N := lt_of_lt_of_eq h N128.symm

/-- Entry `n` of the row minima after position `s` (the word of +∞ outside the grid). -/
def acc2 (c : Dev nD) (s : ℕ) (n : Fin 1024) : EReal :=
  if h : s < cfg0.N then (outsAt m c s h).1 (ix3 0 0 n) else top
/-- Entry `k` of the column minima after position `s`. -/
def acc3 (c : Dev nD) (s : ℕ) (k : Fin 4096) : EReal :=
  if h : s < cfg0.N then (outsAt m c s h).2 (ix3 0 0 k) else top

theorem acc2_of_lt (c : Dev nD) (s : ℕ) (h : s < cfg0.N) (n : Fin 1024) : acc2 m c s n = (outsAt m c s h).1 (ix3 0 0 n) := dif_pos h
theorem acc3_of_lt (c : Dev nD) (s : ℕ) (h : s < cfg0.N) (k : Fin 4096) : acc3 m c s k = (outsAt m c s h).2 (ix3 0 0 k) := dif_pos h

/-- The tile of clamped squared distances the body forms at point `t` is the specification's `dd` of the two clouds
    at the batch, the first cloud's tile and the second cloud's tile of the point. -/
theorem tile_eq (c : Dev nD) (t : Fin cfg0.N) (n k : Fin 1024) (b : Fin 8) (r q : Fin 4096)
    (hb : b.val = t.val / 16) (hr : r.val = t.val / 4 % 4 * 1024 + n.val) (hq : q.val = t.val % 4 * 1024 + k.val) :
    tile (grid0.coords t) (iblk m c 0 t) (iblk m c 1 t) n k = dd (cloudP m c) (cloudQ m c) b r q := by
  obtain rfl : b = ⟨t.val / 16, b_lt t⟩ := Fin.ext hb
  obtain rfl : r = ⟨t.val / 4 % 4 * 1024 + n.val, n_lt t n⟩ := Fin.ext hr
  have e : pt (grid0.coords t) k = q :=
    Fin.ext (by show ((grid0.coords t) 2).val * 1024 + k.val = q.val; rw [hq, (coords_val t).2.2])
  unfold tile Chamfer.dd Chamfer.sq Chamfer.inner
  rw [e]
  simp only [iblk0_apply, iblk1_apply]

/-- At a point where the second-cloud tile is 0 the row minima restart: the minimum of the +∞ word and the tile's
    row minimum. -/
theorem rec2_reset (c : Dev nD) (s : ℕ) (hs : s < cfg0.N) (h0 : s % 4 = 0) (n : Fin 1024) (b : Fin 8) (r : Fin 4096) (k : Fin 4)
    (hb : b.val = s / 16) (hr : r.val = s / 4 % 4 * 1024 + n.val) (hk : k.val = s % 4) :
    acc2 m c s n = min top (rowMin (cloudP m c) (cloudQ m c) b r k) := by
  rw [acc2_of_lt m c s hs]
  have ht : ∀ j : Fin 1024, tile (grid0.coords ⟨s, hs⟩) (iblk m c 0 ⟨s, hs⟩) (iblk m c 1 ⟨s, hs⟩) n j
      = dd (cloudP m c) (cloudQ m c) b r ⟨k.val * 1024 + j.val, by have := k.isLt; omega⟩ :=
    fun j => tile_eq m c ⟨s, hs⟩ n j b r _ hb hr (by show k.val * 1024 + j.val = s % 4 * 1024 + j.val; rw [hk])
  by_cases h1 : s % 16 = 0
  · rw [outsAt_A m c ⟨s, hs⟩ h0 h1]
    dsimp only
    rw [outA2_apply]
    simp only [ht]
    rfl
  · rw [outsAt_C m c ⟨s, hs⟩ h0 h1]
    dsimp only
    rw [outC2_apply]
    simp only [ht]
    rfl

/-- At any other point the row minima take in the tile's row minimum. -/
theorem rec2_step (c : Dev nD) (s : ℕ) (hs : s < cfg0.N) (h0 : ¬s % 4 = 0) (n : Fin 1024) (b : Fin 8) (r : Fin 4096) (k : Fin 4)
    (hb : b.val = s / 16) (hr : r.val = s / 4 % 4 * 1024 + n.val) (hk : k.val = s % 4) :
    acc2 m c s n = min (acc2 m c (s - 1) n) (rowMin (cloudP m c) (cloudQ m c) b r k) := by
  rw [acc2_of_lt m c s hs, acc2_of_lt m c (s - 1) (Nat.lt_of_le_of_lt (Nat.sub_le _ _) hs)]
  have ht : ∀ j : Fin 1024, tile (grid0.coords ⟨s, hs⟩) (iblk m c 0 ⟨s, hs⟩) (iblk m c 1 ⟨s, hs⟩) n j
      = dd (cloudP m c) (cloudQ m c) b r ⟨k.val * 1024 + j.val, by have := k.isLt; omega⟩ :=
    fun j => tile_eq m c ⟨s, hs⟩ n j b r _ hb hr (by show k.val * 1024 + j.val = s % 4 * 1024 + j.val; rw [hk])
  rw [outsAt_B m c ⟨s, hs⟩ h0]
  dsimp only
  rw [outB2_apply]
  simp only [ht]
  rfl

/-- After the last second-cloud tile the row minima are the nearest squared distances to the second cloud. -/
theorem near1_final (c : Dev nD) (t : Fin cfg0.N) (h3 : t.val % 4 = 3) (n : Fin 1024) :
    (outsAt m c t.val t.isLt).1 (ix3 0 0 n)
      = near1 (cloudP m c) (cloudQ m c) ⟨t.val / 16, b_lt t⟩ ⟨t.val / 4 % 4 * 1024 + n.val, n_lt t n⟩ := by
  have hN := N128
  have htl := t_lt t
  have key := rows_final (cloudP m c) (cloudQ m c) ⟨t.val / 16, b_lt t⟩ ⟨t.val / 4 % 4 * 1024 + n.val, n_lt t n⟩
    (fun k => acc2 m c (t.val - 3 + k.val) n)
    (rec2_reset m c (t.val - 3 + (0 : Fin 4).val) (lt_N (by show t.val - 3 + 0 < 128; omega)) (by show (t.val - 3 + 0) % 4 = 0; omega) n _ _ 0
      (by show t.val / 16 = (t.val - 3 + 0) / 16; omega) (by show t.val / 4 % 4 * 1024 + n.val = (t.val - 3 + 0) / 4 % 4 * 1024 + n.val; omega)
      (by show 0 = (t.val - 3 + 0) % 4; omega))
    (fun k hk => by
      have hk4 := k.isLt
      have e : t.val - 3 + (⟨k.val - 1, by omega⟩ : Fin 4).val = t.val - 3 + k.val - 1 := by show t.val - 3 + (k.val - 1) = _; omega
      show acc2 m c (t.val - 3 + k.val) n = min (acc2 m c (t.val - 3 + (⟨k.val - 1, by omega⟩ : Fin 4).val) n) _
      rw [e]
      exact rec2_step m c (t.val - 3 + k.val) (lt_N (by omega)) (by omega) n _ _ k
        (by show t.val / 16 = (t.val - 3 + k.val) / 16; omega) (by show t.val / 4 % 4 * 1024 + n.val = (t.val - 3 + k.val) / 4 % 4 * 1024 + n.val; omega)
        (by omega))
  rw [← key, ← acc2_of_lt m c t.val t.isLt n]
  exact congrArg (fun s => acc2 m c s n) (by show t.val = t.val - 3 + 3; omega)

/-- The tile's column minimum at a point, for a column of the slice the point updates, is the specification's
    minimum over the first cloud's tile. -/
theorem colfold_eq (c : Dev nD) (s : ℕ) (hs : s < cfg0.N) (k : Fin 4096) (b : Fin 8) (j : Fin 4)
    (hb : b.val = s / 16) (hj : j.val = s / 4 % 4) (hk : k.val / 1024 = s % 4) :
    (Finset.univ : Finset (Fin 1024)).fold min top (fun n => tile (grid0.coords ⟨s, hs⟩) (iblk m c 0 ⟨s, hs⟩) (iblk m c 1 ⟨s, hs⟩) n (loc k))
      = colMin (cloudP m c) (cloudQ m c) b j k := by
  unfold colMin
  refine congrArg (fun f => Finset.fold min top f Finset.univ) (funext fun n => ?_)
  exact tile_eq m c ⟨s, hs⟩ n (loc k) b ⟨j.val * 1024 + n.val, by have := j.isLt; omega⟩ k hb
    (by show j.val * 1024 + n.val = s / 4 % 4 * 1024 + n.val; rw [hj])
    (by show k.val = s % 4 * 1024 + k.val % 1024; omega)

/-- At a batch's first point the column minima restart: the first slice takes the tile's column minima, the rest
    hold the +∞ word. -/
theorem rec3_reset (c : Dev nD) (s : ℕ) (hs : s < cfg0.N) (h0 : s % 16 = 0) (k : Fin 4096) (b : Fin 8) (hb : b.val = s / 16) :
    acc3 m c s k = if k.val / 1024 = 0 then min top (colMin (cloudP m c) (cloudQ m c) b 0 k) else top := by
  rw [acc3_of_lt m c s hs, outsAt_A m c ⟨s, hs⟩ (by show s % 4 = 0; omega) h0]
  dsimp only
  rw [outA3_apply]
  have h2 : ((grid0.coords ⟨s, hs⟩) 2).val = 0 := by rw [(coords_val ⟨s, hs⟩).2.2]; show s % 4 = 0; omega
  rw [h2]
  by_cases hk : k.val / 1024 = 0
  · rw [if_pos hk, if_pos hk, colfold_eq m c s hs k b 0 hb (by show 0 = s / 4 % 4; omega) (by omega)]
  · rw [if_neg hk, if_neg hk]

/-- At any other point the slice of the point's second-cloud tile takes in the tile's column minima, the other
    slices stay. -/
theorem rec3_step (c : Dev nD) (s : ℕ) (hs : s < cfg0.N) (h0 : ¬s % 16 = 0) (k : Fin 4096) (b : Fin 8) (j : Fin 4)
    (hb : b.val = s / 16) (hj : j.val = s / 4 % 4) :
    acc3 m c s k = if k.val / 1024 = s % 4 then min (acc3 m c (s - 1) k) (colMin (cloudP m c) (cloudQ m c) b j k) else acc3 m c (s - 1) k := by
  rw [acc3_of_lt m c s hs, acc3_of_lt m c (s - 1) (Nat.lt_of_le_of_lt (Nat.sub_le _ _) hs)]
  have h2 : ((grid0.coords ⟨s, hs⟩) 2).val = s % 4 := (coords_val ⟨s, hs⟩).2.2
  by_cases h4 : s % 4 = 0
  · rw [outsAt_C m c ⟨s, hs⟩ h4 h0]
    dsimp only
    rw [outC3_apply, h2]
    by_cases hk : k.val / 1024 = s % 4
    · rw [if_pos hk, if_pos hk, colfold_eq m c s hs k b j hb hj hk]
    · rw [if_neg hk, if_neg hk]
  · rw [outsAt_B m c ⟨s, hs⟩ h4]
    dsimp only
    rw [outB3_apply, h2]
    by_cases hk : k.val / 1024 = s % 4
    · rw [if_pos hk, if_pos hk, colfold_eq m c s hs k b j hb hj hk]
    · rw [if_neg hk, if_neg hk]

/-- After a batch's last point the column minima are the nearest squared distances to the first cloud. -/
theorem near2_final (c : Dev nD) (t : Fin cfg0.N) (h15 : t.val % 16 = 15) (k : Fin 4096) :
    (outsAt m c t.val t.isLt).2 (ix3 0 0 k) = near2 (cloudP m c) (cloudQ m c) ⟨t.val / 16, b_lt t⟩ k := by
  have htl := t_lt t
  have key := cols_final (cloudP m c) (cloudQ m c) ⟨t.val / 16, b_lt t⟩ (fun s k' => acc3 m c (t.val - 15 + s.val) k')
    (fun k' => rec3_reset m c (t.val - 15 + (0 : Fin 16).val) (lt_N (by show t.val - 15 + 0 < 128; omega)) (by show (t.val - 15 + 0) % 16 = 0; omega) k' _
      (by show t.val / 16 = (t.val - 15 + 0) / 16; omega))
    (fun s hs k' => by
      have hs16 := s.isLt
      have e : t.val - 15 + (⟨s.val - 1, by omega⟩ : Fin 16).val = t.val - 15 + s.val - 1 := by show t.val - 15 + (s.val - 1) = _; omega
      have e4 : (t.val - 15 + s.val) % 4 = s.val % 4 := by omega
      show acc3 m c (t.val - 15 + s.val) k' = if k'.val / 1024 = s.val % 4 then min (acc3 m c (t.val - 15 + (⟨s.val - 1, by omega⟩ : Fin 16).val) k') _ else acc3 m c (t.val - 15 + (⟨s.val - 1, by omega⟩ : Fin 16).val) k'
      rw [e, ← e4]
      exact rec3_step m c (t.val - 15 + s.val) (lt_N (by omega)) (by omega) k' _ ⟨s.val / 4, by omega⟩
        (by show t.val / 16 = (t.val - 15 + s.val) / 16; omega) (by show s.val / 4 = (t.val - 15 + s.val) / 4 % 4; omega))
    k
  rw [← key, ← acc3_of_lt m c t.val t.isLt k]
  exact congrArg (fun s => acc3 m c s k) (by show t.val = t.val - 15 + 15; omega)

/-! ## The kernel's run, read -/

/-- Every weakly fair execution of the idealized kernel terminates with its result at the specification's loss of
    the two clouds, the clouds unchanged. -/
theorem value_run : θ_run defs (onTc (τ := τ) (main (F := Ideal))) ⟨m, fun _ => 0, ρ⟩ (fun r => ∀ c : Dev nD,
      r.2.mem ((c.tc : Thread nD τ).loc main_v12) = Cert.Chamfer.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v12 (Pipeline.mem_restRefs_of main_v12 (by decide) (by decide))).trans
        (tail_eq m c _ _ (final2 m c (near1_final m c)) (final3 m c (near2_final m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.RefSide.lean ====
/-
  The reference's side: what its host operations compute, read index by index, is the specification's loss.

  The reference forms, for every batch `b`, point `n` of the first cloud and point `m` of the second, the number
  max (‖p‖² + ‖q‖² − 2·⟨p, q⟩, 0): the two squared norms are sums of three squares from the zero word (which is the
  real zero), broadcast along the other cloud's axis; the inner product is a contraction over the three coordinates.
  Its two minimum-reductions, from the word of +∞, run over the last axis (the nearest point of the second cloud) and
  over the middle axis (the nearest point of the first cloud); a minimum over one axis is the fold of `min` over that
  axis's coordinates. The tail (square roots, sums, division by the number of points, half the sum) is the
  specification's own text.
-/
import proofs.«111677_j11012296147710_2_alg».proof.Defs
import proofs.«111677_j11012296147710_2_alg».proof.Proof.Gen.ReferenceIdeal.Run
import proofs.«111677_j11012296147710_2_alg».proof.Proof.Gen.ReferenceIdeal.Read
import proofs.«111677_j11012296147710_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.Chamfer

/-! ## The squared norms, the inner product and the clamped distance at an index -/

/-- The first cloud's squared norms: the sum from the zero word of the three squares. -/
theorem sq1_apply (P : FVec Ideal S8x4096x3 .f32) (b : Fin 8) (n : Fin 4096) :
    val_main_v1 (F := Ideal) P (ix2 b n) = Chamfer.sq P b n := by
  rw [val_main_v1_apply]
  simp only [val_main_cst_apply, val_main_v0_apply, Ideal.ofBits_def, Ideal.mulf_def, Ideal.ofBits_zero_f32, zero_add, Chamfer.sq]
  refine Finset.sum_congr rfl fun k _ => ?_
  have e : idx_main_v1 (ix2 b n) k = ix3 b n k :=
    funext fun a => Fin.ext (by match a with | ⟨0, _⟩ => rfl | ⟨1, _⟩ => rfl | ⟨2, _⟩ => rfl)
  rw [e]

/-- The second cloud's squared norms. -/
theorem sq2_apply (Q : FVec Ideal S8x4096x3 .f32) (b : Fin 8) (m : Fin 4096) :
    val_main_v3 (F := Ideal) Q (ix2 b m) = Chamfer.sq Q b m := by
  rw [val_main_v3_apply]
  simp only [val_main_cst_0_apply, val_main_v2_apply, Ideal.ofBits_def, Ideal.mulf_def, Ideal.ofBits_zero_f32, zero_add, Chamfer.sq]
  refine Finset.sum_congr rfl fun k _ => ?_
  have e : idx_main_v3 (ix2 b m) k = ix3 b m k :=
    funext fun a => Fin.ext (by match a with | ⟨0, _⟩ => rfl | ⟨1, _⟩ => rfl | ⟨2, _⟩ => rfl)
  rw [e]

/-- The contraction over the three coordinates is the inner product of the two points. -/
theorem inner_apply (P Q : FVec Ideal S8x4096x3 .f32) (b : Fin 8) (n m : Fin 4096) :
    val_main_v4 (F := Ideal) P Q (ix3 b n m) = Chamfer.inner P Q b n m := by
  rw [val_main_v4_apply]
  unfold Chamfer.inner
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The clamped squared distance. -/
theorem dd_apply (P Q : FVec Ideal S8x4096x3 .f32) (b : Fin 8) (n m : Fin 4096) :
    val_main_v14 (F := Ideal) P Q (ix3 b n m) = Chamfer.dd P Q b n m := by
  have e7 : idx_main_v5 (idx_main_v7 (ix3 b n m)) = ix2 b n :=
    funext fun a => Fin.ext (by match a with | ⟨0, _⟩ => rfl | ⟨1, _⟩ => rfl)
  have e8 : idx_main_v6 (idx_main_v8 (ix3 b n m)) = ix2 b m :=
    funext fun a => Fin.ext (by match a with | ⟨0, _⟩ => rfl | ⟨1, _⟩ => rfl)
  rw [val_main_v14_apply, val_main_v12_apply, val_main_v9_apply, val_main_v7_apply, val_main_v5_apply, val_main_v8_apply,
    val_main_v6_apply, val_main_v11_apply, val_main_v10_apply, val_main_v13_apply, e7, e8, sq1_apply, sq2_apply, inner_apply]
  simp only [val_main_cst_1_apply, val_main_cst_2_apply, Ideal.ofBits_def, Ideal.mulf_def, Ideal.addf_def, Ideal.subf_def,
    Ideal.maximumf_def, Chamfer.dd]

/-! ## The two nearest distances -/

theorem red_last : S8x4096x4096.Reduces [2] S8x4096 := by decide
theorem red_mid : S8x4096x4096.Reduces [1] S8x4096 := by decide

/-- The minimum over the last axis, from the word of +∞: the distance to the nearest point of the second cloud. -/
theorem near1_apply (P Q : FVec Ideal S8x4096x3 .f32) (b : Fin 8) (n : Fin 4096) :
    val_main_v15 (F := Ideal) P Q (ix2 b n) = Chamfer.near1 P Q b n := by
  unfold val_main_v15
  refine (Host.reduce_eq_fold_single (FloatOps.minimumf (F := Ideal) (φ := .f32)) _ _ reducesTo_S8x4096x4096_S8x4096_d2
    red_last h_S_ (ix2 b n)).trans ?_
  refine (Finset.fold_congr (g := fun m : Fin 4096 => Chamfer.dd P Q b n m) fun m _ => ?_).trans ?_
  · have el : red_last.lift (ix2 b n) m = ix3 b n m :=
      funext fun a => Fin.ext (by match a with | ⟨0, _⟩ => rfl | ⟨1, _⟩ => rfl | ⟨2, _⟩ => rfl)
    show val_main_v14 (F := Ideal) P Q (red_last.lift (ix2 b n) m) = _
    rw [el, dd_apply]
  · rfl

/-- The minimum over the middle axis, from the word of +∞: the distance to the nearest point of the first cloud. -/
theorem near2_apply (P Q : FVec Ideal S8x4096x3 .f32) (b : Fin 8) (m : Fin 4096) :
    val_main_v16 (F := Ideal) P Q (ix2 b m) = Chamfer.near2 P Q b m := by
  unfold val_main_v16
  refine (Host.reduce_eq_fold_single (FloatOps.minimumf (F := Ideal) (φ := .f32)) _ _ reducesTo_S8x4096x4096_S8x4096_d1
    red_mid h_S_ (ix2 b m)).trans ?_
  refine (Finset.fold_congr (g := fun n : Fin 4096 => Chamfer.dd P Q b n m) fun n _ => ?_).trans ?_
  · have el : red_mid.lift (ix2 b m) n = ix3 b n m :=
      funext fun a => Fin.ext (by match a with | ⟨0, _⟩ => rfl | ⟨1, _⟩ => rfl | ⟨2, _⟩ => rfl)
    show val_main_v14 (F := Ideal) P Q (red_mid.lift (ix2 b m) n) = _
    rw [el, dd_apply]
  · rfl

/-- As arrays. -/
theorem near1A_eq (P Q : FVec Ideal S8x4096x3 .f32) : val_main_v15 (F := Ideal) P Q = Chamfer.near1A P Q := by
  funext i
  obtain ⟨b, n, rfl⟩ : ∃ (b : Fin 8) (n : Fin 4096), i = ix2 b n := ⟨i 0, i 1, eq_ix2 i⟩
  exact near1_apply P Q b n

theorem near2A_eq (P Q : FVec Ideal S8x4096x3 .f32) : val_main_v16 (F := Ideal) P Q = Chamfer.near2A P Q := by
  funext i
  obtain ⟨b, m, rfl⟩ : ∃ (b : Fin 8) (m : Fin 4096), i = ix2 b m := ⟨i 0, i 1, eq_ix2 i⟩
  exact near2_apply P Q b m

/-! ## The whole result -/

/-- The reference's last value is the specification's loss: its two minima are the two arrays of nearest
    distances, and what follows them is the specification's own text. -/
theorem stage_eq (P Q : FVec Ideal S8x4096x3 .f32) : val_main_v24 (F := Ideal) P Q = Chamfer.loss P Q := by
  unfold val_main_v24 val_main_v23 val_main_v19 val_main_v22 val_main_v18 val_main_v21 val_main_v17 val_main_v20
  rw [near1A_eq, near2A_eq]
  rfl

/-- The same, of the term the reference's run states for its result. -/
theorem result_eq (P Q : FVec Ideal S8x4096x3 .f32) :
    (mulf (addf (Host.divf (Host.reduceAdd (Host.sqrt (Host.reduce FloatOps.minimumf (maximumf (subf (addf (broadcastInDim S8x4096x4096 ![0, 1, 2] bcast_S8x4096x1_S8x4096x4096_0_1_2 (broadcastInDim S8x4096x1 ![0, 1] bcast_S8x4096_S8x4096x1_0_1 (Host.reduceAdd (mulf P P) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf Q Q) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none P Q))) (broadcastInDim S8x4096x4096 ![] bcast_S_S8x4096x4096 (constant S_ .f32 0x00000000#32))) (constant S_ .f32 0x7F800000#32) reducesTo_S8x4096x4096_S8x4096_d2 h_S_)) (constant S_ .f32 0x00000000#32) reducesTo_S8x4096_S_d0_1 h_S_) (constant S_ .f32 0x47000000#32)) (Host.divf (Host.reduceAdd (Host.sqrt (Host.reduce FloatOps.minimumf (maximumf (subf (addf (broadcastInDim S8x4096x4096 ![0, 1, 2] bcast_S8x4096x1_S8x4096x4096_0_1_2 (broadcastInDim S8x4096x1 ![0, 1] bcast_S8x4096_S8x4096x1_0_1 (Host.reduceAdd (mulf P P) (constant S_ .f32 0x00000000#32) reducesTo_S8x4096x3_S8x4096_d2 h_S_))) (broadcastInDim S8x4096x4096 ![0, 1, 2] bcast_S8x1x4096_S8x4096x4096_0_1_2 (broadcastInDim S8x1x4096 ![0, 2] bcast_S8x4096_S8x1x4096_0_2 (Host.reduceAdd (mulf Q Q) (constant S_ .f32 0x00000000#32) reducesTo_S8x4096x3_S8x4096_d2 h_S_)))) (mulf (broadcastInDim S8x4096x4096 ![] bcast_S_S8x4096x4096 (constant S_ .f32 0x40000000#32)) (Host.dotGeneral dot_S8x4096x3_S8x4096x3_S8x4096x4096_2_2_1_1_0_0 none P Q))) (broadcastInDim S8x4096x4096 ![] bcast_S_S8x4096x4096 (constant S_ .f32 0x00000000#32))) (constant S_ .f32 0x7F800000#32) reducesTo_S8x4096x4096_S8x4096_d1 h_S_)) (constant S_ .f32 0x00000000#32) reducesTo_S8x4096_S_d0_1 h_S_) (constant S_ .f32 0x47000000#32))) (constant S_ .f32 0x3F000000#32) : FVec Ideal S_ .f32)
      = Chamfer.loss P Q :=
  (val_main_v24_eq (F := Ideal) P Q).trans (stage_eq P Q)

/-- Every weakly fair execution of the reference ends with its result at the specification's loss of the two
    arguments, the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v24) = Cert.Chamfer.loss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans (result_eq _ _), (h c).2⟩)
    (Cert.ReferenceIdeal.Value.run (F := Ideal) m ρ)

end Cert.ReferenceIdeal.RefValue

end
-- ==== Proof.lean ====
/-
  The certificate's claim.

  Both programs compute, on the extended reals, the same loss of the two point clouds (the specification's
  `Cert.Chamfer.loss`): the clamped squared distance of every pair of points of a batch, its minimum along each
  cloud, the mean of the square roots of the two families of minima, half their sum.  The kernel takes the
  minima tile by tile, a running minimum started from the +∞ word at each row tile's, respectively each
  batch's, first grid point; the reference takes them over a whole axis at once.  Since `min` is associative,
  commutative and idempotent the two agree at every extended real, so the precondition is never opened.

  The frames: the kernel's two (word level and idealized) are the pipeline's run with the body's three cases;
  the reference's is its run with the result dropped.  The ideal pass rewrote nothing, so `preserves` is trivial.
-/
import proofs.«111677_j11012296147710_2_alg».proof.Defs
import proofs.«111677_j11012296147710_2_alg».proof.Proof.Gen.Kernel
import proofs.«111677_j11012296147710_2_alg».proof.Proof.Gen.KernelIdeal
import proofs.«111677_j11012296147710_2_alg».proof.Proof.Gen.ReferenceIdeal
import proofs.«111677_j11012296147710_2_alg».proof.Proof.Gen.Pre_finite_inputs
import proofs.«111677_j11012296147710_2_alg».proof.Proof.BodyBits
import proofs.«111677_j11012296147710_2_alg».proof.Proof.KernelValue
import proofs.«111677_j11012296147710_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Body.frame m ρ

theorem frame_ki : Cert.frame_KernelIdeal (hKernelIdeal := Cert.KernelIdeal.Gen.facts) (hPre_finite_inputs := Cert.Pre_finite_inputs.Gen.facts) :=
  fun m ρ _ => Cert.KernelIdeal.Body.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs, from memories agreeing on the clouds, both end at the loss of those clouds. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Chamfer.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.value_run m ρ, ?_⟩
  refine (θ_run Cert.ReferenceIdeal.defs _ _).mono (fun _ h c => ⟨?_, (h c).2⟩) (Cert.ReferenceIdeal.RefValue.run m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
